-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S128x47 .f32) (main_arg9 : FVec F S128x47 .f32) (main_arg10 : FVec F S47 .f32) (main_v33 : IVec S_ 1) : IVec S_ 1 :=
  let main_v34 : FVec F S128x47 .f32 := Host.absf main_arg8
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg10
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x47 .f32) (main_arg9 : FVec F S128x47 .f32) (main_arg10 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x47 .f32) (main_arg9 : FVec F S128x47 .f32) (main_arg10 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x47 : Shape := ⟨2, ![1, 47]⟩
abbrev S800000x128 : Shape := ⟨2, ![800000, 128]⟩
abbrev S5000x128 : Shape := ⟨2, ![5000, 128]⟩
abbrev S5000x1 : Shape := ⟨2, ![5000, 1]⟩
abbrev S50000x47 : Shape := ⟨2, ![50000, 47]⟩
abbrev S5000x47 : Shape := ⟨2, ![5000, 47]⟩
abbrev S800000x47 : Shape := ⟨2, ![800000, 47]⟩
abbrev S5000 : Shape := ⟨1, ![5000]⟩

abbrev nBuf : Space → Nat
  | .hbm => 74
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x47, .f32⟩
  | .hbm, ⟨9, _⟩ => ⟨S128x47, .f32⟩
  | .hbm, ⟨10, _⟩ => ⟨S47, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S1x128, .f32⟩
  | .hbm, ⟨30, _⟩ => ⟨S1x47, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x128, .f32⟩
  | .hbm, ⟨59, _⟩ => ⟨S50000x47, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x47, .f32⟩
  | .hbm, ⟨69, _⟩ => ⟨S_, .f32⟩
  | .hbm, ⟨70, _⟩ => ⟨S50000x47, .f32⟩
  | .hbm, ⟨71, _⟩ => ⟨S800000x1, .i32⟩
  | .hbm, ⟨72, _⟩ => ⟨S50000x47, .f32⟩
  | .hbm, ⟨73, _⟩ => ⟨S50000x47, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x47, .f32⟩
  | .local _ .vmem, ⟨25, _⟩ => ⟨S5000x47, .f32⟩
  | .local _ .vmem, ⟨26, _⟩ => ⟨S5000x47, .f32⟩
  | .local _ .vmem, ⟨27, _⟩ => ⟨S5000x47, .f32⟩
  | .local _ .vmem, ⟨28, _⟩ => ⟨S5000x47, .f32⟩
  | .local _ .vmem, ⟨29, _⟩ => ⟨S5000x1, .f32⟩
  | .local _ .vmem, ⟨30, _⟩ => ⟨S5000x1, .f32⟩
  | .local _ .vmem, ⟨31, _⟩ => ⟨S5000x128, .f32⟩
  | .local _ .vmem, ⟨32, _⟩ => ⟨S5000x128, .f32⟩
  | .local _ .vmem, ⟨33, _⟩ => ⟨S128x47, .f32⟩
  | .local _ .vmem, ⟨34, _⟩ => ⟨S1x47, .f32⟩
  | .local _ .vmem, ⟨35, _⟩ => ⟨S5000x47, .f32⟩
  | .local _ .vmem, ⟨36, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x47 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x47 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x47 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x47 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S47_S1x47 : S47.ShapeCasts S1x47
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  bcast_S_S50000x47 : S_.BroadcastsInDim S50000x47 (![] : Fin 0 → Fin S50000x47.rank)
  shapeCasts_S5000x47_S5000x47 : S5000x47.ShapeCasts S5000x47
  broadcasts_S5000x1_S5000x47 : S5000x1.Broadcasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  gather_S50000x47_S800000x1_S800000x47_1_0_n_n_0_1_147_wf : GatherDims.WF S50000x47 S800000x1 S800000x47 [1] [0] [] [0] [] 1 ![1, 47]
  scatter_S50000x47_S800000x1_S800000x47_1_0_0_1_wf : ScatterDims.WF S50000x47 S800000x1 S800000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x47.size a ≤ S128x47.size a
  hwx2_1 : ∀ i : grid2.Coords, EltTy.bits .f32 = 32 ∨ (Rect.block (s := S128x47) S128x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x47.size a ≤ S50000x47.size a
  hwx2_2 : ∀ i : grid2.Coords, EltTy.bits .f32 = 32 ∨ (Rect.block (s := S50000x47) S5000x47.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x47.size a ≤ S50000x47.size a
  hwx3_0 : ∀ i : grid3.Coords, EltTy.bits .f32 = 32 ∨ (Rect.block (s := S50000x47) S5000x47.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x47.size a ≤ S128x47.size a
  hwx3_3 : ∀ i : grid3.Coords, EltTy.bits .f32 = 32 ∨ (Rect.block (s := S128x47) S128x47.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x47.size a ≤ S1x47.size a
  hwx3_4 : ∀ i : grid3.Coords, EltTy.bits .f32 = 32 ∨ (Rect.block (s := S1x47) S1x47.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x47.size a ≤ S50000x47.size a
  hwx3_5 : ∀ i : grid3.Coords, EltTy.bits .f32 = 32 ∨ (Rect.block (s := S50000x47) S5000x47.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S50000x47_S800000x1_S800000x47_1_0_n_n_0_1_147 : GatherDims S50000x47 S800000x1 S800000x47 where
  offsetDims := [1]
  collapsedSliceDims := [0]
  operandBatchingDims := []
  startIndicesBatchingDims := []
  startIndexMap := [0]
  indexVectorDim := 1
  sliceSizes := ![1, 47]
  wf := gather_S50000x47_S800000x1_S800000x47_1_0_n_n_0_1_147_wf
def scatter_S50000x47_S800000x1_S800000x47_1_0_0_1 : ScatterDims S50000x47 S800000x1 S800000x47 where
  updateWindowDims := [1]
  insertedWindowDims := [0]
  scatterDimsToOperandDims := [0]
  indexVectorDim := 1
  wf := scatter_S50000x47_S800000x1_S800000x47_1_0_0_1_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x47.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x47.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S1x47.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x47.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x47, .f32⟩
  | 9 => ⟨S128x47, .f32⟩
  | 10 => ⟨S47, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x47, .f32⟩
  | 109 => ⟨S50000x47, .f32⟩
  | 110 => ⟨S50000x47, .f32⟩
  | 111 => ⟨S1x47, .f32⟩
  | 112 => ⟨S50000x47, .f32⟩
  | 113 => ⟨S50000x47, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x47, .f32⟩
  | 121 => ⟨S50000x47, .f32⟩
  | 122 => ⟨S50000x47, .f32⟩
  | 123 => ⟨S_, .f32⟩
  | 124 => ⟨S50000, .f32⟩
  | 125 => ⟨S50000x1, .f32⟩
  | 126 => ⟨S50000x1, .f32⟩
  | 127 => ⟨S50000x47, .f32⟩
  | _ => ⟨S50000x128, .f32⟩

abbrev hbmTy0_1 (i : Nat) : BufTy := match i % 128 with
  | 0 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S50000x1_S50000x47_0_1 : S50000x1.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The idealized kernel's run with its result NAMED: every weakly fair execution of @main terminates, the argument
  arrays end as launched, and the result array ends at the contents the last region's write-backs leave
  (`W7 … main_v49`: the fold of the host stretches and the four regions over the launch memory).
-/
import proofs.«177180_j43800076484795_2_alg».proof.Proof.KernelIdealFrameP

set_option maxRecDepth 16384

noncomputable section

namespace Cert.Sage.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run over the same seven segments as the frame, the last thread state read at the result array too. -/
theorem run_named : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.Sage.KRun

end
-- ==== Proof.Spec.lean ====
/-
  The values of a three-layer mean-aggregation graph network, index by index, over the extended reals.

  A layer maps node features `h : [N, D]` to `[N, C]`: at node `n`, output channel `j`, it adds three terms —
  the neighbour sum `A (n, ·)` scaled by a per-node factor and multiplied by the weight `Wl`, the node's own
  features multiplied by `Wr`, and the bias.  The kernel scales by a stored reciprocal `ic (n, 0)`
  (`preK`), the reference divides by the count `cm n` (`preR`).  The first two layers end in `max · 0`;
  the last ends in a row-wise log-softmax (`lsm`).  In the last layer the kernel multiplies by `Wl` before
  summing over neighbours, so its first term is the scaled neighbour sum itself (`pre3K`).
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals over the index type of the shape `[a, b]`. -/
abbrev Mat (a b : Nat) := (⟨2, ![a, b]⟩ : Shape).Idx → EReal
/-- A vector of extended reals over the index type of the shape `[a]`. -/
abbrev Vc (a : Nat) := (⟨1, ![a]⟩ : Shape).Idx → EReal

variable {N D C : Nat}

/-! ## The kernel's forms -/

/-- A layer before its nonlinearity, as the kernel computes it at `(n, j)`:
    `(∑ₖ (A n k · ic n) · Wl k j + ∑ₖ h n k · Wr k j) + b j`. -/
def preK (A : Mat N D) (ic : Mat N 1) (h : Mat N D) (Wl Wr : Mat D C) (b : Mat 1 C) (n : Fin N) (j : Fin C) : EReal :=
  ((∑ k : Fin D, (A (ix2 n k) * ic (ix2 n (0 : Fin 1))) * Wl (ix2 k j)) + ∑ k : Fin D, h (ix2 n k) * Wr (ix2 k j))
    + b (ix2 (0 : Fin 1) j)

/-- A hidden layer of the kernel: `preK` clipped below at zero. -/
def denseK (A : Mat N D) (ic : Mat N 1) (h : Mat N D) (Wl Wr : Mat D C) (b : Mat 1 C) : Mat N C :=
  fun i => max (preK A ic h Wl Wr b (i 0) (i 1)) 0

theorem denseK_apply (A : Mat N D) (ic : Mat N 1) (h : Mat N D) (Wl Wr : Mat D C) (b : Mat 1 C) (n : Fin N) (j : Fin C) :
    denseK A ic h Wl Wr b (ix2 n j) = max (preK A ic h Wl Wr b n j) 0 := rfl

/-- The plain product `h · W` at `(n, j)`: `∑ₖ h n k · W k j`. -/
def projK (h : Mat N D) (W : Mat D C) : Mat N C :=
  fun i => ∑ k : Fin D, h (ix2 (i 0) k) * W (ix2 k (i 1))

theorem projK_apply (h : Mat N D) (W : Mat D C) (n : Fin N) (j : Fin C) :
    projK h W (ix2 n j) = ∑ k : Fin D, h (ix2 n k) * W (ix2 k j) := rfl

/-- The kernel's last layer before the log-softmax at `(n, j)`: `(A n j · ic n + ∑ₖ h n k · Wr k j) + b j`,
    where `A` is the neighbour sum of the already projected features. -/
def pre3K (A : Mat N C) (ic : Mat N 1) (h : Mat N D) (Wr : Mat D C) (b : Mat 1 C) (n : Fin N) (j : Fin C) : EReal :=
  (A (ix2 n j) * ic (ix2 n (0 : Fin 1)) + ∑ k : Fin D, h (ix2 n k) * Wr (ix2 k j)) + b (ix2 (0 : Fin 1) j)

/-- The value the row maxima start from: the f32 pattern of minus infinity, kept as a pattern. -/
def negInf : EReal := Ideal.ofBits .f32 0xFF800000#32

theorem negInf_def : negInf = Ideal.ofBits .f32 0xFF800000#32 := rfl

/-- The maximum of a row, folded from `negInf`. -/
def rowMax (z : Fin C → EReal) : EReal := (Finset.univ : Finset (Fin C)).fold max negInf z

/-- The row-wise log-softmax of `z` at `(n, j)`: `(z n j − M) − log ∑_q exp (z n q − M)` with `M` the maximum
    of row `n`. -/
def lsm (z : Fin N → Fin C → EReal) (n : Fin N) (j : Fin C) : EReal :=
  (z n j - rowMax (z n)) - Ideal.log (∑ q : Fin C, Ideal.exp (z n q - rowMax (z n)))

/-- The kernel's output layer. -/
def outK (A : Mat N C) (ic : Mat N 1) (h : Mat N D) (Wr : Mat D C) (b : Mat 1 C) : Mat N C :=
  fun i => lsm (pre3K A ic h Wr b) (i 0) (i 1)

theorem outK_apply (A : Mat N C) (ic : Mat N 1) (h : Mat N D) (Wr : Mat D C) (b : Mat 1 C) (n : Fin N) (j : Fin C) :
    outK A ic h Wr b (ix2 n j) = lsm (pre3K A ic h Wr b) n j := rfl

/-! ## The reference's forms -/

/-- A layer before its nonlinearity, as the reference computes it at `(n, j)`:
    `(∑ₖ (A n k / cm n) · Wl k j + ∑ₖ h n k · Wr k j) + b j`. -/
def preR (A : Mat N D) (cm : Vc N) (h : Mat N D) (Wl Wr : Mat D C) (b : Vc C) (n : Fin N) (j : Fin C) : EReal :=
  ((∑ k : Fin D, Ideal.div (A (ix2 n k)) (cm (ix1 n)) * Wl (ix2 k j)) + ∑ k : Fin D, h (ix2 n k) * Wr (ix2 k j))
    + b (ix1 j)

/-- A hidden layer of the reference. -/
def denseR (A : Mat N D) (cm : Vc N) (h : Mat N D) (Wl Wr : Mat D C) (b : Vc C) : Mat N C :=
  fun i => max (preR A cm h Wl Wr b (i 0) (i 1)) 0

theorem denseR_apply (A : Mat N D) (cm : Vc N) (h : Mat N D) (Wl Wr : Mat D C) (b : Vc C) (n : Fin N) (j : Fin C) :
    denseR A cm h Wl Wr b (ix2 n j) = max (preR A cm h Wl Wr b n j) 0 := rfl

/-- The reference's output layer. -/
def outR (A : Mat N D) (cm : Vc N) (h : Mat N D) (Wl Wr : Mat D C) (b : Vc C) : Mat N C :=
  fun i => lsm (preR A cm h Wl Wr b) (i 0) (i 1)

theorem outR_apply (A : Mat N D) (cm : Vc N) (h : Mat N D) (Wl Wr : Mat D C) (b : Vc C) (n : Fin N) (j : Fin C) :
    outR A cm h Wl Wr b (ix2 n j) = lsm (preR A cm h Wl Wr b) n j := rfl

end Cert.Sage

end
-- ==== Proof.LibRowIndex.lean ====
/-
  A row gather and a row scatter-add, read at an index.

  A matrix `x : [N, C]` gathered at a column of row numbers `idx : [E, 1]` gives the matrix whose row `e` is the
  row of `x` numbered `idx[e, 0]` (read signed and clamped into `[0, N - 1]`).  Scatter-adding the rows of
  `upd : [E, C]` into `x` at those row numbers adds to every row `n` of `x` the rows of `upd` whose row number,
  read signed and not clamped, is `n`; a row number outside `[0, N)` contributes nothing.
-/
import Idealize.ShloMosaic.PureOps.Ideal
import Idealize.ShloMosaic.Lib.ValueIdx

noncomputable section

open scoped BigOperators

namespace Cert.GNN.RowIndex

open Idealize.ShloMosaic Idealize.ShloMosaic.ValueIdx

/-! ## The gather of rows -/

section Gather
variable {α : Type}

/-- The dimension numbers of a row gather: operand `[N, C]`, start indices `[E, 1]` (the index vector on axis 1,
    of length one, naming operand axis 0), result `[E, C]` whose axis 1 is the offset axis over slices `[1, C]`
    with operand axis 0 collapsed. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]` (read signed, clamped into `[0, N - 1]`),
    column `k`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg (show ¬ (1 : Fin 2) ∈ (rowGatherDims N E C wf).startIndexMap from
        (by decide : (1 : Fin 2) ∉ [(0 : Fin 2)]))]
    rw [hs]
    have hk : (1 : Fin 2) ∈ (rowGatherDims N E C wf).sKept :=
      (GatherDims.mem_sKept _ _).mpr ⟨(by decide : (1 : Fin 2) ∉ [(0 : Fin 2)]), List.not_mem_nil⟩
    unfold GatherDims.offCoord
    rw [dif_pos hk]
    simp only [Nat.zero_add, Nat.add_zero]
    rfl

/-- The row gather at an in-range row number: if `idx[e, 0]`, read signed, is the row number `r`, the result's
    row `e` is the operand's row `r`. -/
theorem gather_row_apply_of_eq {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (h : (idx (ix2 e (0 : Fin 1))).toInt = (r.val : Int)) :
    Host.gather (rowGatherDims N E C wf) x idx (ix2 e k) = x (ix2 r k) := by
  have hN : 0 < N := Nat.lt_of_le_of_lt (Nat.zero_le _) r.isLt
  rw [gather_row_apply hN wf x idx e k]
  congr 2
  refine Fin.ext ?_
  show min (idx (ix2 e (0 : Fin 1))).toInt.toNat (N - 1) = r.val
  rw [h]
  have := r.isLt
  simp only [Int.toNat_natCast]
  omega

end Gather

/-! ## The scatter-add of rows -/

section Scatter

/-- The dimension numbers of a row scatter: operand `[N, C]`, scatter indices `[E, 1]` (the index vector on axis 1,
    of length one, naming operand axis 0), updates `[E, C]` whose axis 1 is the window axis, operand axis 0
    inserted. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `j` starts at the row number `idx[j 0, 0]`, read signed. -/
theorem start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`. -/
theorem start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    (by decide : (1 : Fin 2) ∉ [(0 : Fin 2)]))]

/-- The row axis is inserted: no window coordinate. -/
theorem window_row (j : (⟨2, ![E, C]⟩ : Shape).Idx) : (rowScatterDims N E C wf).window j 0 = 0 := by
  unfold ScatterDims.window
  rw [dif_neg (show ¬ (0 : Fin 2) ∈ (rowScatterDims N E C wf).sKept from
    (by decide : (0 : Fin 2) ∉ (List.finRange 2).filter (fun a => a ∉ [(0 : Fin 2)])))]

/-- The column axis carries the update's column. -/
theorem window_col (j : (⟨2, ![E, C]⟩ : Shape).Idx) : (rowScatterDims N E C wf).window j 1 = (j 1).val := by
  unfold ScatterDims.window
  rw [dif_pos (show (1 : Fin 2) ∈ (rowScatterDims N E C wf).sKept from
    (by decide : (1 : Fin 2) ∈ (List.finRange 2).filter (fun a => a ∉ [(0 : Fin 2)])))]
  rfl

/-- Update `j` lands at `(n, c)` exactly when its row number, read signed, is `n` and its column is `c`. -/
theorem resultIdx?_row_eq_some_iff (idx : IVec ⟨2, ![E, 1]⟩ w) (j : (⟨2, ![E, C]⟩ : Shape).Idx) (n : Fin N) (c : Fin C) :
    (rowScatterDims N E C wf).resultIdx? j idx = some (ix2 n c) ↔
      (idx (ix2 (j 0) (0 : Fin 1))).toInt = (n.val : Int) ∧ j 1 = c := by
  unfold ScatterDims.resultIdx?
  constructor
  · intro h
    split at h
    · rename_i hh
      have h' := Option.some.inj h
      have h0 : ((rowScatterDims N E C wf).start j idx 0 + ((rowScatterDims N E C wf).window j 0 : Int)).toNat = n.val :=
        congrArg (fun f => (f 0).val) h'
      have h1 : ((rowScatterDims N E C wf).start j idx 1 + ((rowScatterDims N E C wf).window j 1 : Int)).toNat = c.val :=
        congrArg (fun f => (f 1).val) h'
      have hh0 := (hh 0).1
      rw [start_row, window_row] at h0 hh0
      rw [start_col, window_col] at h1
      refine ⟨by omega, Fin.ext (by omega)⟩
    · exact absurd h (by simp)
  · rintro ⟨h0, h1⟩
    have hn := n.isLt
    have hc := c.isLt
    have hj1 : (j 1).val = c.val := congrArg Fin.val h1
    rw [dif_pos]
    · congr 1
      funext a
      refine Fin.ext ?_
      match a with
      | ⟨0, _⟩ =>
        show ((rowScatterDims N E C wf).start j idx 0 + ((rowScatterDims N E C wf).window j 0 : Int)).toNat = n.val
        rw [start_row, window_row, h0]; omega
      | ⟨1, _⟩ =>
        show ((rowScatterDims N E C wf).start j idx 1 + ((rowScatterDims N E C wf).window j 1 : Int)).toNat = c.val
        rw [start_col, window_col, hj1]; omega
    · intro a
      match a with
      | ⟨0, _⟩ =>
        show 0 ≤ (rowScatterDims N E C wf).start j idx 0 + ((rowScatterDims N E C wf).window j 0 : Int) ∧
          (rowScatterDims N E C wf).start j idx 0 + ((rowScatterDims N E C wf).window j 0 : Int) < (N : Int)
        rw [start_row, window_row, h0]; omega
      | ⟨1, _⟩ =>
        show 0 ≤ (rowScatterDims N E C wf).start j idx 1 + ((rowScatterDims N E C wf).window j 1 : Int) ∧
          (rowScatterDims N E C wf).start j idx 1 + ((rowScatterDims N E C wf).window j 1 : Int) < (C : Int)
        rw [start_col, window_col, hj1]; omega

/-- THE ROW SCATTER-ADD READ AT `(n, d)`: the operand's element plus the column-`d` elements of the update rows
    whose row number, read signed, is `n`. -/
theorem scatterAdd_row_apply (x : (⟨2, ![N, C]⟩ : Shape).Idx → EReal) (idx : IVec ⟨2, ![E, 1]⟩ w)
    (upd : (⟨2, ![E, C]⟩ : Shape).Idx → EReal) (n : Fin N) (d : Fin C) :
    Ideal.hostScatterAdd (rowScatterDims N E C wf) x idx upd (ix2 n d)
      = x (ix2 n d) + ∑ e ∈ Finset.univ.filter (fun e : Fin E => (idx (ix2 e (0 : Fin 1))).toInt = (n.val : Int)),
          upd (ix2 e d) := by
  unfold Ideal.hostScatterAdd
  congr 1
  rw [Finset.sum_filter, sum_idx2, Finset.sum_filter]
  refine Finset.sum_congr rfl (fun e _ => ?_)
  have hstep : ∀ b : Fin C,
      (if (rowScatterDims N E C wf).resultIdx? (ix2 e b) idx = some (ix2 n d) then upd (ix2 e b) else 0)
        = if d = b then (if (idx (ix2 e (0 : Fin 1))).toInt = (n.val : Int) then upd (ix2 e d) else 0) else 0 := by
    intro b
    by_cases hb : d = b
    · subst hb
      rw [if_pos rfl]
      refine if_congr ?_ rfl rfl
      rw [resultIdx?_row_eq_some_iff]
      exact ⟨fun h => h.1, fun h => ⟨h, rfl⟩⟩
    · rw [if_neg hb, if_neg]
      rw [resultIdx?_row_eq_some_iff]
      exact fun h => hb h.2.symm
  rw [Finset.sum_congr rfl (fun b _ => hstep b), Finset.sum_ite_eq]
  simp only [Finset.mem_univ, if_true]

/-- The same for `Host.scatterAdd` at the exact instance, which is that sum by definition. -/
theorem host_scatterAdd_row_apply {φ : FTy} (x : FVec Ideal ⟨2, ![N, C]⟩ φ) (idx : IVec ⟨2, ![E, 1]⟩ w)
    (upd : FVec Ideal ⟨2, ![E, C]⟩ φ) (n : Fin N) (d : Fin C) :
    Host.scatterAdd (rowScatterDims N E C wf) x idx upd (ix2 n d)
      = x (ix2 n d) + ∑ e ∈ Finset.univ.filter (fun e : Fin E => (idx (ix2 e (0 : Fin 1))).toInt = (n.val : Int)),
          upd (ix2 e d) :=
  scatterAdd_row_apply wf x idx upd n d

end Scatter

end Cert.GNN.RowIndex

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«177180_j43800076484795_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.HostChain.lean ====
/-
  The host-side operations both programs share, each as ONE function of the edge list, and what is needed of them.

  The edge list `ei : [2, 800000]` holds a source row and a destination row per edge.  `srcCol` is the column of
  source row numbers (a negative number shifted up by 50000), `dstCol` the column of destination row numbers.
  `agg128 ei h` / `agg47 ei h` gather the rows of `h` at the sources and add them into the zero matrix at the
  destinations: row `n` of the result is the sum of the source rows of the edges whose destination is `n`.
  `cntMax ei` is, per node, the number of such edges, raised to at least one; `icCol ei` its reciprocal as a
  column.
-/
import proofs.«177180_j43800076484795_2_alg».proof.Proof.Gen.KernelIdeal
import proofs.«177180_j43800076484795_2_alg».proof.Proof.Spec
import proofs.«177180_j43800076484795_2_alg».proof.Proof.LibRowIndex
import proofs.«177180_j43800076484795_2_alg».proof.Proof.LibFiniteOps
import proofs.«177180_j43800076484795_2_alg».proof.Proof.LibKeepdims
import Idealize.ShloMosaic.PureOps.Ideal.Laws

noncomputable section

open scoped BigOperators

namespace Cert.Sage

open Idealize.ShloMosaic Idealize.ShloMosaic.ValueIdx Cert.KernelIdeal Cert.KernelIdeal.Gen LibFinite

/-- The edge list. -/
abbrev EI := IVec S2x800000 32

/-- The source row numbers as stored. -/
def srcVec (ei : EI) : IVec S800000 32 :=
  shapeCast S800000 (extractStridedSlice S1x800000 ![0, 0] ei slices_S2x800000_S1x800000_0_0) shapeCasts_S1x800000_S800000

/-- The destination row numbers. -/
def dstVec (ei : EI) : IVec S800000 32 :=
  shapeCast S800000 (extractStridedSlice S1x800000 ![1, 0] ei slices_S2x800000_S1x800000_1_0) shapeCasts_S1x800000_S800000

/-- The column of source row numbers, a negative one shifted up by the number of nodes. -/
def srcCol (ei : EI) : IVec S800000x1 32 :=
  broadcastInDim S800000x1 ![0] bcast_S800000_S800000x1_0
    (select (cmpi .slt (srcVec ei) (broadcastInDim S800000 ![] bcast_S_S800000 (constantI S_ 32 0#32)))
      (addi (srcVec ei) (broadcastInDim S800000 ![] bcast_S_S800000 (constantI S_ 32 50000#32))) (srcVec ei))

/-- The column of destination row numbers. -/
def dstCol (ei : EI) : IVec S800000x1 32 :=
  broadcastInDim S800000x1 ![0] bcast_S800000_S800000x1_0 (dstVec ei)

/-- The neighbour sums of a 128-wide feature matrix. -/
def agg128 (ei : EI) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (dstCol ei)
    (Host.gather gather_S50000x128_S800000x1_S800000x128_1_0_n_n_0_1_1128 h (srcCol ei))

/-- The neighbour sums of a 47-wide feature matrix. -/
def agg47 (ei : EI) (h : FVec Ideal S50000x47 .f32) : FVec Ideal S50000x47 .f32 :=
  Host.scatterAdd scatter_S50000x47_S800000x1_S800000x47_1_0_0_1
    (broadcastInDim S50000x47 ![] bcast_S_S50000x47 (constant S_ .f32 0x00000000#32)) (dstCol ei)
    (Host.gather gather_S50000x47_S800000x1_S800000x47_1_0_n_n_0_1_147 h (srcCol ei))

/-- The number of incoming edges per node, raised to at least one. -/
def cntMax (ei : EI) : FVec Ideal S50000 .f32 :=
  maximumf
    (Host.scatterAdd scatter_S50000_S800000x1_S800000_n_0_0_1
      (broadcastInDim S50000 ![] bcast_S_S50000 (constant S_ .f32 0x00000000#32)) (dstCol ei)
      (broadcastInDim S800000 ![] bcast_S_S800000 (constant S_ .f32 0x3F800000#32)))
    (broadcastInDim S50000 ![] bcast_S_S50000 (constant S_ .f32 0x3F800000#32))

/-- Its reciprocal, as a column. -/
def icCol (ei : EI) : FVec Ideal S50000x1 .f32 :=
  shapeCast S50000x1
    (Host.divf (broadcastInDim S50000 ![] bcast_S_S50000 (constant S_ .f32 0x3F800000#32)) (cntMax ei))
    shapeCasts_S50000_S50000x1

/-! ## The counts are real numbers, at least one -/

/-- The raw counts: the zero vector with a one added at each edge's destination. -/
def cntRaw (ei : EI) : FVec Ideal S50000 .f32 :=
  Host.scatterAdd scatter_S50000_S800000x1_S800000_n_0_0_1
    (broadcastInDim S50000 ![] bcast_S_S50000 (constant S_ .f32 0x00000000#32)) (dstCol ei)
    (broadcastInDim S800000 ![] bcast_S_S800000 (constant S_ .f32 0x3F800000#32))

theorem allReal_cntRaw (ei : EI) : AllReal (cntRaw ei) := fun i =>
  (scatterAdd_count scatter_S50000_S800000x1_S800000_n_0_0_1
    (x := broadcastInDim S50000 ![] bcast_S_S50000 (constant S_ .f32 0x00000000#32))
    (fun _ => Ideal.ofBits_zero_f32) (dstCol ei)
    (upd := broadcastInDim S800000 ![] bcast_S_S800000 (constant S_ .f32 0x3F800000#32))
    (fun _ => f32_one) i).1

theorem cntMax_eq (ei : EI) :
    cntMax ei = maximumf (cntRaw ei) (broadcastInDim S50000 ![] bcast_S_S50000 (constant S_ .f32 0x3F800000#32)) := rfl

theorem allReal_cntMax (ei : EI) : AllReal (cntMax ei) := by
  rw [cntMax_eq]
  exact (allReal_max_one (allReal_cntRaw ei) (fun _ => f32_one)).1

theorem cntMax_ne_zero (ei : EI) (i : S50000.Idx) : cntMax ei i ≠ 0 := by
  rw [cntMax_eq]
  exact (allReal_max_one (allReal_cntRaw ei) (fun _ => f32_one)).2 i

/-- Every count, raised to at least one, is a nonzero real number. -/
theorem cntMax_real (ei : EI) (n : Fin 50000) : ∃ r : ℝ, cntMax ei (ix1 n) = (r : EReal) ∧ r ≠ 0 := by
  obtain ⟨r, hr⟩ := allReal_cntMax ei (ix1 n)
  refine ⟨r, hr, fun h0 => cntMax_ne_zero ei (ix1 n) ?_⟩
  rw [hr, h0]; rfl

/-- The host's quotient of two arrays, element by element. -/
theorem hostDivf_apply {s : Shape} {φ : FTy} (a b : FVec Ideal s φ) (i : s.Idx) : Host.divf a b i = Ideal.div (a i) (b i) := rfl

/-- The reciprocal column at node `n` is one over the count. -/
theorem icCol_apply (ei : EI) (n : Fin 50000) :
    icCol ei (ix2 n (0 : Fin 1)) = Ideal.div 1 (cntMax ei (ix1 n)) := by
  unfold icCol
  rw [LibKeepdims.shapeCast_a_a1_apply]
  rw [hostDivf_apply, show (broadcastInDim S50000 ![] bcast_S_S50000 (constant (F := Ideal) S_ .f32 0x3F800000#32)) (ix1 n) = 1
    from f32_one]

theorem allReal_icCol (ei : EI) : AllReal (icCol ei) := by
  unfold icCol
  exact allReal_shapeCast
    (allReal_hostDivf (allReal_broadcastInDim (allReal_constant_one_f32 S_) _ _ _) (allReal_cntMax ei) (cntMax_ne_zero ei)) _ _

/-! ## The neighbour sums read at an index -/

/-- The edges whose destination is node `n`. -/
def hit (ei : EI) (n : Fin 50000) : Finset (Fin 800000) :=
  Finset.univ.filter (fun e : Fin 800000 => (dstCol ei (ix2 e (0 : Fin 1))).toInt = (n.val : Int))

/-- The source row of edge `e`, clamped into the matrix. -/
def srcRow (ei : EI) (e : Fin 800000) : Fin 50000 :=
  ⟨min (srcCol ei (ix2 e (0 : Fin 1))).toInt.toNat (50000 - 1), by omega⟩

theorem agg128_apply (ei : EI) (h : FVec Ideal S50000x128 .f32) (n : Fin 50000) (k : Fin 128) :
    agg128 ei h (ix2 n k) = ∑ e ∈ hit ei n, h (ix2 (srcRow ei e) k) := by
  unfold agg128
  refine (Cert.GNN.RowIndex.host_scatterAdd_row_apply (N := 50000) (E := 800000) (C := 128)
    scatter_S50000x128_S800000x1_S800000x128_1_0_0_1_wf _ (dstCol ei) _ n k).trans ?_
  rw [show (broadcastInDim S50000x128 ![] bcast_S_S50000x128 (constant (F := Ideal) S_ .f32 0x00000000#32)) (ix2 n k) = 0
    from Ideal.ofBits_zero_f32, zero_add]
  refine Finset.sum_congr rfl (fun e _ => ?_)
  exact Cert.GNN.RowIndex.gather_row_apply (N := 50000) (E := 800000) (C := 128) (by decide)
    gather_S50000x128_S800000x1_S800000x128_1_0_n_n_0_1_1128_wf h (srcCol ei) e k

theorem agg47_apply (ei : EI) (h : FVec Ideal S50000x47 .f32) (n : Fin 50000) (k : Fin 47) :
    agg47 ei h (ix2 n k) = ∑ e ∈ hit ei n, h (ix2 (srcRow ei e) k) := by
  unfold agg47
  refine (Cert.GNN.RowIndex.host_scatterAdd_row_apply (N := 50000) (E := 800000) (C := 47)
    scatter_S50000x47_S800000x1_S800000x47_1_0_0_1_wf _ (dstCol ei) _ n k).trans ?_
  rw [show (broadcastInDim S50000x47 ![] bcast_S_S50000x47 (constant (F := Ideal) S_ .f32 0x00000000#32)) (ix2 n k) = 0
    from Ideal.ofBits_zero_f32, zero_add]
  refine Finset.sum_congr rfl (fun e _ => ?_)
  exact Cert.GNN.RowIndex.gather_row_apply (N := 50000) (E := 800000) (C := 47) (by decide)
    gather_S50000x47_S800000x1_S800000x47_1_0_n_n_0_1_147_wf h (srcCol ei) e k

theorem allReal_agg128 (ei : EI) {h : FVec Ideal S50000x128 .f32} (hh : AllReal h) : AllReal (agg128 ei h) := by
  unfold agg128
  exact allReal_scatterAdd _ (allReal_broadcastInDim (allReal_constant_zero_f32 S_) _ _ _) _ (allReal_gather _ hh _)

theorem allReal_agg47 (ei : EI) {h : FVec Ideal S50000x47 .f32} (hh : AllReal h) : AllReal (agg47 ei h) := by
  unfold agg47
  exact allReal_scatterAdd _ (allReal_broadcastInDim (allReal_constant_zero_f32 S_) _ _ _) _ (allReal_gather _ hh _)

end Cert.Sage

end
-- ==== Proof.Model.lean ====
/-
  The whole network as one function of its eleven arguments, twice: as the kernel's four regions and the host
  operations between them compose (`modelK`), and as the reference computes it (`modelR`).
-/
import proofs.«177180_j43800076484795_2_alg».proof.Proof.HostChain

noncomputable section

namespace Cert.Sage

open Idealize.ShloMosaic Idealize.ShloMosaic.ValueIdx Cert.KernelIdeal Cert.KernelIdeal.Gen

/-- A bias vector as a one-row matrix. -/
def row128 (b : FVec Ideal S128 .f32) : FVec Ideal S1x128 .f32 := shapeCast S1x128 b shapeCasts_S128_S1x128
/-- A bias vector as a one-row matrix. -/
def row47 (b : FVec Ideal S47 .f32) : FVec Ideal S1x47 .f32 := shapeCast S1x47 b shapeCasts_S47_S1x47

/-- A hidden layer of the kernel: the neighbour sums of `h`, the reciprocal counts, `h` itself, the weights and the
    bias row through `denseK`. -/
def hidK (ei : EI) (h : FVec Ideal S50000x128 .f32) (Wl Wr : FVec Ideal S128x128 .f32) (b : FVec Ideal S128 .f32) :
    FVec Ideal S50000x128 .f32 :=
  denseK (N := 50000) (D := 128) (C := 128) (agg128 ei h) (icCol ei) h Wl Wr (row128 b)

/-- The kernel's network. -/
def modelK (x : FVec Ideal S50000x128 .f32) (ei : EI) (Wl0 Wr0 : FVec Ideal S128x128 .f32) (b0 : FVec Ideal S128 .f32)
    (Wl1 Wr1 : FVec Ideal S128x128 .f32) (b1 : FVec Ideal S128 .f32) (Wl2 Wr2 : FVec Ideal S128x47 .f32)
    (b2 : FVec Ideal S47 .f32) : FVec Ideal S50000x47 .f32 :=
  outK (N := 50000) (D := 128) (C := 47)
    (agg47 ei (projK (N := 50000) (D := 128) (C := 47) (hidK ei (hidK ei x Wl0 Wr0 b0) Wl1 Wr1 b1) Wl2))
    (icCol ei) (hidK ei (hidK ei x Wl0 Wr0 b0) Wl1 Wr1 b1) Wr2 (row47 b2)

/-- A hidden layer of the reference. -/
def hidR (ei : EI) (h : FVec Ideal S50000x128 .f32) (Wl Wr : FVec Ideal S128x128 .f32) (b : FVec Ideal S128 .f32) :
    FVec Ideal S50000x128 .f32 :=
  denseR (N := 50000) (D := 128) (C := 128) (agg128 ei h) (cntMax ei) h Wl Wr b

/-- The reference's network. -/
def modelR (x : FVec Ideal S50000x128 .f32) (ei : EI) (Wl0 Wr0 : FVec Ideal S128x128 .f32) (b0 : FVec Ideal S128 .f32)
    (Wl1 Wr1 : FVec Ideal S128x128 .f32) (b1 : FVec Ideal S128 .f32) (Wl2 Wr2 : FVec Ideal S128x47 .f32)
    (b2 : FVec Ideal S47 .f32) : FVec Ideal S50000x47 .f32 :=
  outR (N := 50000) (D := 128) (C := 47) (agg128 ei (hidR ei (hidR ei x Wl0 Wr0 b0) Wl1 Wr1 b1)) (cntMax ei)
    (hidR ei (hidR ei x Wl0 Wr0 b0) Wl1 Wr1 b1) Wl2 Wr2 b2

end Cert.Sage

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.DensePay.lean ====
/-
  The arithmetic of a dense layer's block, read at a row and a column.

  The body multiplies the neighbour-sum block by the per-row factor repeated along the columns, multiplies the
  result and the node's own block by the two weight matrices (two rows-by-columns products into zero accumulators),
  adds the two products, adds the bias row repeated along the rows, and clips below at zero. Over the extended reals a
  change of float format is the identity, so at row p and column q the block is
    max (((∑ₖ (x0 (p,k) · x1 (p,0)) · x3 (k,q)) + ∑ₖ x2 (p,k) · x4 (k,q)) + x5 (0,q)) 0 .
  Both layers share this form; the second only re-lays its own block by one more identity cast.
-/
import proofs.«177180_j43800076484795_2_alg».proof.Proof.Gen.KernelIdeal.Skeleton
import proofs.«177180_j43800076484795_2_alg».proof.Proof.LibPlainMatmul
import proofs.«177180_j43800076484795_2_alg».proof.Proof.LibKeepdims
import Idealize.ShloMosaic.Lib.ValueLayout
import Idealize.ShloMosaic.Lib.Pipeline.Value
import Idealize.ShloMosaic.PureOps.Ideal.Laws

noncomputable section

namespace Cert.Sage.DensePay

open Cert.KernelIdeal Cert.KernelIdeal.Gen Idealize.ShloMosaic Idealize.ShloMosaic.ValueIdx
open scoped BigOperators

/-- The printed product record is the plain rows-by-columns one. -/
theorem dot_plain : dot_S5000x128_S128x128_S5000x128_1_0_0_1_n_n
    = Cert.LibPlainMatmul.plainDims (m := 5000) (k := 128) (n := 128) dot_S5000x128_S128x128_S5000x128_1_0_0_1_n_n.wf := rfl

/-- A product of a block by a weight matrix into the zero accumulator, at row p and column q. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ c : Fin 128, l (ix2 p c) * r (ix2 c q) :=
  Cert.LibPlainMatmul.matmul_zero_plain (m := 5000) (k := 128) (n := 128) _ l r p q

/-- The first dense layer's block at row p, column q. -/
theorem k0_pay1_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k0_pay1 (F := Ideal) x0 x1 x2 x3 x4 x5 (ix2 p q)
      = max (((∑ k : Fin 128, (x0 (ix2 p k) * x1 (ix2 p (0 : Fin 1))) * x3 (ix2 k q))
          + ∑ k : Fin 128, x2 (ix2 p k) * x4 (ix2 k q)) + x5 (ix2 (0 : Fin 1) q)) 0 := by
  unfold k0_pay1
  rw [maximumf_apply, addf_apply, addf_apply, broadcast_apply, mm_apply, mm_apply,
    broadcastTo_1b_ab_apply, shapeCast_self]
  simp only [truncf_apply, mulf_apply, shapeCast_self, Cert.LibKeepdims.broadcastTo_a1_ab_apply]
  exact congrArg (max _) Ideal.ofBits_zero_f32

/-- The second dense layer's block at row p, column q: the same form. -/
theorem k1_pay1_apply (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k1_pay1 (F := Ideal) x0 x1 x2 x3 x4 x5 (ix2 p q)
      = max (((∑ k : Fin 128, (x0 (ix2 p k) * x1 (ix2 p (0 : Fin 1))) * x3 (ix2 k q))
          + ∑ k : Fin 128, x2 (ix2 p k) * x4 (ix2 k q)) + x5 (ix2 (0 : Fin 1) q)) 0 := by
  unfold k1_pay1
  rw [maximumf_apply, addf_apply, addf_apply, broadcast_apply, mm_apply, mm_apply,
    broadcastTo_1b_ab_apply, shapeCast_self]
  simp only [truncf_apply, mulf_apply, shapeCast_self, Cert.LibKeepdims.broadcastTo_a1_ab_apply]
  exact congrArg (max _) Ideal.ofBits_zero_f32

end Cert.Sage.DensePay

end
-- ==== Proof.Region0.lean ====
/-
  The first dense layer of the network, from row blocks to the whole array.

  The layer runs over ten grid points. Point t stages rows 5000·t … 5000·t + 4999 of the neighbour-sum array, of the
  per-row factor column and of the node features, together with the two whole weight matrices and the whole bias row,
  and writes rows 5000·t … 5000·t + 4999 of the output. Row p of a block is therefore row 5000·t + p of its array, and
  the weights and the bias are read where they stand. With the body's arithmetic at a row and a column
  (the payload lemma), what point t writes back is block t of ONE function of the arrays the layer finds on entry,
    max (((∑ₖ (A (n,k) · ic (n,0)) · Wl (k,j)) + ∑ₖ h (n,k) · Wr (k,j)) + b (0,j)) 0 ,
  and since the ten blocks of 5000 rows tile the 50000 rows (row r lies in block r / 5000), the output array ends
  holding that function. Everything is stated for arbitrary contents on entry.
-/
import proofs.«177180_j43800076484795_2_alg».proof.Proof.KernelIdealFrameP
import proofs.«177180_j43800076484795_2_alg».proof.Proof.Spec
import proofs.«177180_j43800076484795_2_alg».proof.Proof.DensePay
import Idealize.ShloMosaic.Lib.Pipeline.Value

noncomputable section

namespace Cert.Sage.Region0

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The zero offsets, however they are spelt. -/
theorem hz : (![0, 0] : Fin 2 → Nat) = fun _ => 0 := funext fun a => by fin_cases a <;> rfl

/-- The index maps over the ten points: the three row-blocked inputs and the output sit at block row t, block column
    0; the two weight matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point is below ten. -/
theorem lt10 (t : Fin cfg0.N) : t.val < 10 := by
  exact lt_of_lt_of_eq t.isLt N_0

/-- Row p of the neighbour-sum block at point t is row 5000·t + p of its array. -/
theorem read0 (c : Dev nD) (t : Fin cfg0.N) (p : Fin 5000) (k : Fin 128) :
    (iblk0 V c 0 t : Vec Ideal S5000x128 .f32) (ix2 p k)
      = (V c main_v25 : S50000x128.Idx → EReal) (ix2 ⟨5000 * t.val + p.val, by have := lt10 t; omega⟩ k) := by
  obtain ⟨e0, e1, -⟩ := idx_facts t
  unfold iblk0
  rw [View.read_apply]
  show V c main_v25 _ = V c main_v25 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Row p of the factor column's block at point t is row 5000·t + p of the column. -/
theorem read1 (c : Dev nD) (t : Fin cfg0.N) (p : Fin 5000) (u : Fin 1) :
    (iblk0 V c 1 t : Vec Ideal S5000x1 .f32) (ix2 p u)
      = (V c main_v12 : S50000x1.Idx → EReal) (ix2 ⟨5000 * t.val + p.val, by have := lt10 t; omega⟩ u) := by
  obtain ⟨-, -, e0, e1, -⟩ := idx_facts t
  unfold iblk0
  rw [View.read_apply]
  show V c main_v12 _ = V c main_v12 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 1 + 1 * u.val = u.val; rw [e1]; omega

/-- Row p of the feature block at point t is row 5000·t + p of the feature array. -/
theorem read2 (c : Dev nD) (t : Fin cfg0.N) (p : Fin 5000) (k : Fin 128) :
    (iblk0 V c 2 t : Vec Ideal S5000x128 .f32) (ix2 p k)
      = (V c main_arg0 : S50000x128.Idx → EReal) (ix2 ⟨5000 * t.val + p.val, by have := lt10 t; omega⟩ k) := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

/-- The first weight matrix is staged whole at every point. -/
theorem read3 (c : Dev nD) (t : Fin cfg0.N) (k : Fin 128) (q : Fin 128) :
    (iblk0 V c 3 t : Vec Ideal S128x128 .f32) (ix2 k q) = (V c main_arg2 : S128x128.Idx → EReal) (ix2 k q) := by
  obtain ⟨-, -, -, -, -, -, e0, e1, -⟩ := idx_facts t
  unfold iblk0
  rw [View.read_apply]
  show V c main_arg2 _ = V c main_arg2 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight matrix is staged whole at every point. -/
theorem read4 (c : Dev nD) (t : Fin cfg0.N) (k : Fin 128) (q : Fin 128) :
    (iblk0 V c 4 t : Vec Ideal S128x128 .f32) (ix2 k q) = (V c main_arg3 : S128x128.Idx → EReal) (ix2 k q) := by
  obtain ⟨-, -, -, -, -, -, -, -, e0, e1, -⟩ := idx_facts t
  unfold iblk0
  rw [View.read_apply]
  show V c main_arg3 _ = V c main_arg3 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias row is staged whole at every point. -/
theorem read5 (c : Dev nD) (t : Fin cfg0.N) (u : Fin 1) (q : Fin 128) :
    (iblk0 V c 5 t : Vec Ideal S1x128 .f32) (ix2 u q) = (V c main_v13 : S1x128.Idx → EReal) (ix2 u q) := by
  obtain ⟨-, -, -, -, -, -, -, -, -, -, e0, e1, -⟩ := idx_facts t
  unfold iblk0
  rw [View.read_apply]
  show V c main_v13 _ = V c main_v13 _
  congr 1
  funext a
  apply Fin.ext
  match a with
  | ⟨0, _⟩ => show win0_5.index t (0 : Fin 2) * 1 + 1 * u.val = u.val; rw [e0]; omega
  | ⟨1, _⟩ => show win0_5.index t (1 : Fin 2) * 128 + 1 * q.val = q.val; rw [e1]; omega

/-- A block of the layer, over variables: when row p of the three row-blocked inputs is row r of their arrays and the
    whole-array inputs are their arrays, the body's block at (p, q) is the layer at (r, q). -/
theorem dense_at (A : Mat 50000 128) (ic : Mat 50000 1) (h : Mat 50000 128) (Wl Wr : Mat 128 128) (b : Mat 1 128)
    (x0 : Vec Ideal S5000x128 .f32) (x1 : Vec Ideal S5000x1 .f32) (x2 : Vec Ideal S5000x128 .f32)
    (x3 x4 : Vec Ideal S128x128 .f32) (x5 : Vec Ideal S1x128 .f32) (r : Fin 50000) (p : Fin 5000) (q : Fin 128)
    (h0 : ∀ k : Fin 128, x0 (ix2 p k) = A (ix2 r k)) (h1 : x1 (ix2 p (0 : Fin 1)) = ic (ix2 r (0 : Fin 1)))
    (h2 : ∀ k : Fin 128, x2 (ix2 p k) = h (ix2 r k)) (h3 : ∀ k : Fin 128, x3 (ix2 k q) = Wl (ix2 k q))
    (h4 : ∀ k : Fin 128, x4 (ix2 k q) = Wr (ix2 k q)) (h5 : x5 (ix2 (0 : Fin 1) q) = b (ix2 (0 : Fin 1) q)) :
    k0_pay1 (F := Ideal) x0 x1 x2 x3 x4 x5 (ix2 p q) = denseK A ic h Wl Wr b (ix2 r q) := by
  rw [Cert.Sage.DensePay.k0_pay1_apply, denseK_apply]
  unfold preK
  simp only [h0, h1, h2, h3, h4, h5]

/-- What point t writes back is block t of the layer of the arrays found on entry: position (p, q) of the block is
    position (5000·t + p, q) of the array, and the body's block there is the layer there. -/
theorem flushed_eq (c : Dev nD) (t : Fin cfg0.N) :
    (dat0 (F := Ideal) V c).flushed 6 t
      = ((cfg0.win 6).blk t).view.read (Elt Ideal)
          (denseK (N := 50000) (D := 128) (C := 128) (V c main_v25) (V c main_v12) (V c main_arg0) (V c main_arg2) (V c main_arg3) (V c main_v13)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have ht := lt10 t
  have hemb : ((cfg0.win 6).blk t).view.emb (ix2 p q : S5000x128.Idx)
      = (ix2 (⟨5000 * t.val + p.val, by omega⟩ : Fin 50000) q : S50000x128.Idx) := by
    obtain ⟨-, -, -, -, -, -, -, -, -, -, -, -, e0, e1⟩ := idx_facts t
    funext a
    apply Fin.ext
    match a with
    | ⟨0, _⟩ => show win0_6.index t (0 : Fin 2) * 5000 + 1 * p.val = 5000 * t.val + p.val; rw [e0]; omega
    | ⟨1, _⟩ => show win0_6.index t (1 : Fin 2) * 128 + 1 * q.val = q.val; rw [e1]; omega
  show k0_pay1 (F := Ideal) (iblk0 V c 0 t) (iblk0 V c 1 t) (iblk0 V c 2 t) (iblk0 V c 3 t) (iblk0 V c 4 t) (iblk0 V c 5 t) (ix2 p q)
    = denseK (N := 50000) (D := 128) (C := 128) (V c main_v25) (V c main_v12) (V c main_arg0) (V c main_arg2) (V c main_arg3) (V c main_v13)
        (((cfg0.win 6).blk t).view.emb (ix2 p q : S5000x128.Idx))
  rw [hemb]
  exact dense_at (V c main_v25) (V c main_v12) (V c main_arg0) (V c main_arg2) (V c main_arg3) (V c main_v13)
    (iblk0 V c 0 t) (iblk0 V c 1 t) (iblk0 V c 2 t) (iblk0 V c 3 t) (iblk0 V c 4 t) (iblk0 V c 5 t)
    ⟨5000 * t.val + p.val, by omega⟩ p q
    (fun k => read0 V c t p k) (read1 V c t p 0) (fun k => read2 V c t p k)
    (fun k => read3 V c t k q) (fun k => read4 V c t k q) (read5 V c t 0 q)

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- Row r of the output array is written by point r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- After the region the output array holds the layer of the arrays the region found. -/
theorem final (c : Dev nD) :
    (dat0 (F := Ideal) V c).arrAt 6 cfg0.N
      = denseK (N := 50000) (D := 128) (C := 128) (V c main_v25) (V c main_v12) (V c main_arg0) (V c main_arg2) (V c main_arg3) (V c main_v13) :=
  (dat0 (F := Ideal) V c).arrAt_eq_of_cover 6
    (denseK (N := 50000) (D := 128) (C := 128) (V c main_v25) (V c main_v12) (V c main_arg0) (V c main_arg2) (V c main_arg3) (V c main_v13))
    (fun t _ => flushed_eq V c t) cover

end Cert.Sage.Region0

end
-- ==== Proof.Region1.lean ====
/-
  The second dense layer of the network, from row blocks to the whole array.

  The layer runs over ten grid points. Point t stages rows 5000·t … 5000·t + 4999 of the neighbour-sum array, of the
  per-row factor column and of the first layer's output (this layer's features), together with the two whole weight matrices and the whole bias row,
  and writes rows 5000·t … 5000·t + 4999 of the output. Row p of a block is therefore row 5000·t + p of its array, and
  the weights and the bias are read where they stand. With the body's arithmetic at a row and a column
  (the payload lemma), what point t writes back is block t of ONE function of the arrays the layer finds on entry,
    max (((∑ₖ (A (n,k) · ic (n,0)) · Wl (k,j)) + ∑ₖ h (n,k) · Wr (k,j)) + b (0,j)) 0 ,
  and since the ten blocks of 5000 rows tile the 50000 rows (row r lies in block r / 5000), the output array ends
  holding that function. Everything is stated for arbitrary contents on entry.
-/
import proofs.«177180_j43800076484795_2_alg».proof.Proof.KernelIdealFrameP
import proofs.«177180_j43800076484795_2_alg».proof.Proof.Spec
import proofs.«177180_j43800076484795_2_alg».proof.Proof.DensePay
import Idealize.ShloMosaic.Lib.Pipeline.Value

noncomputable section

namespace Cert.Sage.Region1

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The zero offsets, however they are spelt. -/
theorem hz : (![0, 0] : Fin 2 → Nat) = fun _ => 0 := funext fun a => by fin_cases a <;> rfl

/-- The index maps over the ten points: the three row-blocked inputs and the output sit at block row t, block column
    0; the two weight matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point is below ten. -/
theorem lt10 (t : Fin cfg1.N) : t.val < 10 := by
  exact lt_of_lt_of_eq t.isLt N_1

/-- Row p of the neighbour-sum block at point t is row 5000·t + p of its array. -/
theorem read0 (c : Dev nD) (t : Fin cfg1.N) (p : Fin 5000) (k : Fin 128) :
    (iblk1 V c 0 t : Vec Ideal S5000x128 .f32) (ix2 p k)
      = (V c main_v36 : S50000x128.Idx → EReal) (ix2 ⟨5000 * t.val + p.val, by have := lt10 t; omega⟩ k) := by
  obtain ⟨e0, e1, -⟩ := idx_facts t
  unfold iblk1
  rw [View.read_apply]
  show V c main_v36 _ = V c main_v36 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of the factor column's block at point t is row 5000·t + p of the column. -/
theorem read1 (c : Dev nD) (t : Fin cfg1.N) (p : Fin 5000) (u : Fin 1) :
    (iblk1 V c 1 t : Vec Ideal S5000x1 .f32) (ix2 p u)
      = (V c main_v12 : S50000x1.Idx → EReal) (ix2 ⟨5000 * t.val + p.val, by have := lt10 t; omega⟩ u) := by
  obtain ⟨-, -, e0, e1, -⟩ := idx_facts t
  unfold iblk1
  rw [View.read_apply]
  show V c main_v12 _ = V c main_v12 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 1 + 1 * u.val = u.val; rw [e1]; omega

/-- Row p of the feature block at point t is row 5000·t + p of the feature array. -/
theorem read2 (c : Dev nD) (t : Fin cfg1.N) (p : Fin 5000) (k : Fin 128) :
    (iblk1 V c 2 t : Vec Ideal S5000x128 .f32) (ix2 p k)
      = (V c main_v26 : S50000x128.Idx → EReal) (ix2 ⟨5000 * t.val + p.val, by have := lt10 t; omega⟩ k) := by
  obtain ⟨-, -, -, -, e0, e1, -⟩ := idx_facts t
  unfold iblk1
  rw [View.read_apply]
  show V c main_v26 _ = V c main_v26 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 128 + 1 * k.val = k.val; rw [e1]; omega

/-- The first weight matrix is staged whole at every point. -/
theorem read3 (c : Dev nD) (t : Fin cfg1.N) (k : Fin 128) (q : Fin 128) :
    (iblk1 V c 3 t : Vec Ideal S128x128 .f32) (ix2 k q) = (V c main_arg5 : S128x128.Idx → EReal) (ix2 k q) := by
  obtain ⟨-, -, -, -, -, -, e0, e1, -⟩ := idx_facts t
  unfold iblk1
  rw [View.read_apply]
  show V c main_arg5 _ = V c main_arg5 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The second weight matrix is staged whole at every point. -/
theorem read4 (c : Dev nD) (t : Fin cfg1.N) (k : Fin 128) (q : Fin 128) :
    (iblk1 V c 4 t : Vec Ideal S128x128 .f32) (ix2 k q) = (V c main_arg6 : S128x128.Idx → EReal) (ix2 k q) := by
  obtain ⟨-, -, -, -, -, -, -, -, e0, e1, -⟩ := idx_facts t
  unfold iblk1
  rw [View.read_apply]
  show V c main_arg6 _ = V c main_arg6 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias row is staged whole at every point. -/
theorem read5 (c : Dev nD) (t : Fin cfg1.N) (u : Fin 1) (q : Fin 128) :
    (iblk1 V c 5 t : Vec Ideal S1x128 .f32) (ix2 u q) = (V c main_v14 : S1x128.Idx → EReal) (ix2 u q) := by
  obtain ⟨-, -, -, -, -, -, -, -, -, -, e0, e1, -⟩ := idx_facts t
  unfold iblk1
  rw [View.read_apply]
  show V c main_v14 _ = V c main_v14 _
  congr 1
  funext a
  apply Fin.ext
  match a with
  | ⟨0, _⟩ => show win1_5.index t (0 : Fin 2) * 1 + 1 * u.val = u.val; rw [e0]; omega
  | ⟨1, _⟩ => show win1_5.index t (1 : Fin 2) * 128 + 1 * q.val = q.val; rw [e1]; omega

/-- A block of the layer, over variables: when row p of the three row-blocked inputs is row r of their arrays and the
    whole-array inputs are their arrays, the body's block at (p, q) is the layer at (r, q). -/
theorem dense_at (A : Mat 50000 128) (ic : Mat 50000 1) (h : Mat 50000 128) (Wl Wr : Mat 128 128) (b : Mat 1 128)
    (x0 : Vec Ideal S5000x128 .f32) (x1 : Vec Ideal S5000x1 .f32) (x2 : Vec Ideal S5000x128 .f32)
    (x3 x4 : Vec Ideal S128x128 .f32) (x5 : Vec Ideal S1x128 .f32) (r : Fin 50000) (p : Fin 5000) (q : Fin 128)
    (h0 : ∀ k : Fin 128, x0 (ix2 p k) = A (ix2 r k)) (h1 : x1 (ix2 p (0 : Fin 1)) = ic (ix2 r (0 : Fin 1)))
    (h2 : ∀ k : Fin 128, x2 (ix2 p k) = h (ix2 r k)) (h3 : ∀ k : Fin 128, x3 (ix2 k q) = Wl (ix2 k q))
    (h4 : ∀ k : Fin 128, x4 (ix2 k q) = Wr (ix2 k q)) (h5 : x5 (ix2 (0 : Fin 1) q) = b (ix2 (0 : Fin 1) q)) :
    k1_pay1 (F := Ideal) x0 x1 x2 x3 x4 x5 (ix2 p q) = denseK A ic h Wl Wr b (ix2 r q) := by
  rw [Cert.Sage.DensePay.k1_pay1_apply, denseK_apply]
  unfold preK
  simp only [h0, h1, h2, h3, h4, h5]

/-- What point t writes back is block t of the layer of the arrays found on entry: position (p, q) of the block is
    position (5000·t + p, q) of the array, and the body's block there is the layer there. -/
theorem flushed_eq (c : Dev nD) (t : Fin cfg1.N) :
    (dat1 (F := Ideal) V c).flushed 6 t
      = ((cfg1.win 6).blk t).view.read (Elt Ideal)
          (denseK (N := 50000) (D := 128) (C := 128) (V c main_v36) (V c main_v12) (V c main_v26) (V c main_arg5) (V c main_arg6) (V c main_v14)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  have ht := lt10 t
  have hemb : ((cfg1.win 6).blk t).view.emb (ix2 p q : S5000x128.Idx)
      = (ix2 (⟨5000 * t.val + p.val, by omega⟩ : Fin 50000) q : S50000x128.Idx) := by
    obtain ⟨-, -, -, -, -, -, -, -, -, -, -, -, e0, e1⟩ := idx_facts t
    funext a
    apply Fin.ext
    match a with
    | ⟨0, _⟩ => show win1_6.index t (0 : Fin 2) * 5000 + 1 * p.val = 5000 * t.val + p.val; rw [e0]; omega
    | ⟨1, _⟩ => show win1_6.index t (1 : Fin 2) * 128 + 1 * q.val = q.val; rw [e1]; omega
  show k1_pay1 (F := Ideal) (iblk1 V c 0 t) (iblk1 V c 1 t) (iblk1 V c 2 t) (iblk1 V c 3 t) (iblk1 V c 4 t) (iblk1 V c 5 t) (ix2 p q)
    = denseK (N := 50000) (D := 128) (C := 128) (V c main_v36) (V c main_v12) (V c main_v26) (V c main_arg5) (V c main_arg6) (V c main_v14)
        (((cfg1.win 6).blk t).view.emb (ix2 p q : S5000x128.Idx))
  rw [hemb]
  exact dense_at (V c main_v36) (V c main_v12) (V c main_v26) (V c main_arg5) (V c main_arg6) (V c main_v14)
    (iblk1 V c 0 t) (iblk1 V c 1 t) (iblk1 V c 2 t) (iblk1 V c 3 t) (iblk1 V c 4 t) (iblk1 V c 5 t)
    ⟨5000 * t.val + p.val, by omega⟩ p q
    (fun k => read0 V c t p k) (read1 V c t p 0) (fun k => read2 V c t p k)
    (fun k => read3 V c t k q) (fun k => read4 V c t k q) (read5 V c t 0 q)

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v37).slice (win1_6.rect t)).set ↔ _
  rw [View.set_slice_whole, Rect.mem_set_unit]
  exact Iff.rfl

/-- Row r of the output array is written by point r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- After the region the output array holds the layer of the arrays the region found. -/
theorem final (c : Dev nD) :
    (dat1 (F := Ideal) V c).arrAt 6 cfg1.N
      = denseK (N := 50000) (D := 128) (C := 128) (V c main_v36) (V c main_v12) (V c main_v26) (V c main_arg5) (V c main_arg6) (V c main_v14) :=
  (dat1 (F := Ideal) V c).arrAt_eq_of_cover 6
    (denseK (N := 50000) (D := 128) (C := 128) (V c main_v36) (V c main_v12) (V c main_v26) (V c main_arg5) (V c main_arg6) (V c main_v14))
    (fun t _ => flushed_eq V c t) cover

end Cert.Sage.Region1

end
-- ==== Proof.Region2.lean ====
/-
  The third stage of the network: the hidden activations times the last layer's neighbour weight.

  The stage walks the 50000 rows of the activations in ten blocks of 5000 rows. At block t it multiplies rows
  5000·t … 5000·t + 4999 of the activations by the whole 128 × 47 weight and writes the 5000 × 47 result as rows
  5000·t … of the output. Entry (p, q) of a block's result is the sum over k of the block's (p, k) times the weight's
  (k, q): the change of format before the product is the identity on extended reals and the product starts from
  zero. Since row n of a matrix product reads only row n of the left factor, block t of the result is block t of
  the product of the whole arrays, and the ten blocks cover the output, so the output ends as that product, for
  whatever contents the arrays have when the stage is entered.
-/
import proofs.«177180_j43800076484795_2_alg».proof.Proof.KernelIdealFrameP
import proofs.«177180_j43800076484795_2_alg».proof.Proof.Spec
import proofs.«177180_j43800076484795_2_alg».proof.Proof.LibPlainMatmul
import Idealize.ShloMosaic.Lib.Pipeline.Value
import Idealize.ShloMosaic.Lib.ValueIdx
import Idealize.ShloMosaic.Lib.ValueLayout

noncomputable section

open Idealize.ShloMosaic Idealize.ShloMosaic.ValueIdx Idealize.ShloMosaic.TcCoe Idealize.SL.Sem
open Idealize.ShloMosaic.Pipeline (Dat)
open scoped BigOperators

namespace Cert.Sage.Region2

open Cert.KernelIdeal Cert.KernelIdeal.Gen

/-- The zero offsets of a whole-buffer access. -/
theorem hz : (![0, 0] : Fin 2 → Nat) = fun _ => 0 := funext fun a => by fin_cases a <;> rfl

/-- The body's result at (p, q): row p of the first block times column q of the second. The format change on the
    way into the product is the identity on extended reals, and the product starts from the zero accumulator. -/
theorem pay_apply (x0 : Vec Ideal S5000x128 .f32) (x1 : Vec Ideal S128x47 .f32) (p : Fin 5000) (q : Fin 47) :
    k2_pay1 (F := Ideal) x0 x1 (ix2 p q) = ∑ k : Fin 128, x0 (ix2 p k) * x1 (ix2 k q) := by
  unfold k2_pay1
  refine (Cert.LibPlainMatmul.matmul_zero_plain _ _ _ p q).trans ?_
  refine Finset.sum_congr rfl fun k _ => ?_
  rw [truncf_apply, truncf_apply, shapeCast_self]

/-- The block indices over the grid: at point t the row-blocked windows sit at block (t, 0), the whole-array window
    at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Entry (p, k) of the first window's block at point t is entry (5000·t + p, k) of its array. -/
theorem blk0_apply (c : Dev nD) (t : Fin cfg2.N) (p : Fin 5000) (k : Fin 128) (n : Fin 50000) (hn : n.val = 5000 * t.val + p.val) :
    (iblk2 (F := Ideal) V c 0 t : Vec Ideal S5000x128 .f32) (ix2 p k) = (V c main_v37 : S50000x128.Idx → EReal) (ix2 n k) := by
  unfold iblk2
  rw [View.read_apply]
  show V c main_v37 _ = V c main_v37 _
  refine congrArg _ ?_
  funext a; apply Fin.ext
  obtain ⟨e0, e1, -⟩ := idx_facts t
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

/-- The second window's block is its whole array at every point. -/
theorem blk1_apply (c : Dev nD) (t : Fin cfg2.N) (k : Fin 128) (q : Fin 47) :
    (iblk2 (F := Ideal) V c 1 t : Vec Ideal S128x47 .f32) (ix2 k q) = (V c main_arg8 : S128x47.Idx → EReal) (ix2 k q) := by
  unfold iblk2
  rw [View.read_apply]
  show V c main_arg8 _ = V c main_arg8 _
  refine congrArg _ ?_
  funext a; apply Fin.ext
  obtain ⟨-, -, e2, e3, -⟩ := idx_facts t
  match a with
  | ⟨0, _⟩ => show win2_1.index t (0 : Fin 2) * 128 + 1 * k.val = k.val; rw [e2]; omega
  | ⟨1, _⟩ => show win2_1.index t (1 : Fin 2) * 47 + 1 * q.val = q.val; rw [e3]; omega

/-- Entry (p, q) of the output window's block at point t sits at (5000·t + p, q) of its array. -/
theorem emb2 (t : Fin cfg2.N) (p : Fin 5000) (q : Fin 47) (n : Fin 50000) (hn : n.val = 5000 * t.val + p.val) :
    ((cfg2.win 2).blk t).view.emb (ix2 p q) = (ix2 n q : S50000x47.Idx) := by
  funext a; apply Fin.ext
  obtain ⟨-, -, -, -, e4, e5⟩ := idx_facts t
  match a with
  | ⟨0, _⟩ => show win2_2.index t (0 : Fin 2) * 5000 + 1 * p.val = n.val; rw [e4, hn]; omega
  | ⟨1, _⟩ => show win2_2.index t (1 : Fin 2) * 47 + 1 * q.val = q.val; rw [e5]; omega

/-- What point t writes back is block t of the product of the two whole arrays: row p of the block is row
    5000·t + p of the array, and a row of the product reads only that row of the left factor. -/
theorem flushed_eq (c : Dev nD) (t : Fin cfg2.N) :
    (dat2 (F := Ideal) V c).flushed 2 t
      = ((cfg2.win 2).blk t).view.read (Elt Ideal) (Cert.Sage.projK (N := 50000) (D := 128) (C := 47) (V c main_v37) (V c main_arg8)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x47) hz]
  funext j
  obtain ⟨p, q, rfl⟩ : ∃ (p : Fin 5000) (q : Fin 47), j = (ix2 p q : S5000x47.Idx) := ⟨j 0, j 1, eq_ix2 j⟩
  have ht : t.val < 10 := t.isLt.trans_eq N_2
  have hn : 5000 * t.val + p.val < 50000 := by have := p.isLt; omega
  show k2_pay1 (iblk2 V c 0 t) (iblk2 V c 1 t) (ix2 p q)
    = Cert.Sage.projK (N := 50000) (D := 128) (C := 47) (V c main_v37) (V c main_arg8) (((cfg2.win 2).blk t).view.emb (ix2 p q))
  rw [emb2 t p q ⟨_, hn⟩ rfl, Cert.Sage.projK_apply]
  refine (pay_apply _ _ p q).trans ?_
  refine Finset.sum_congr rfl fun k _ => ?_
  rw [blk0_apply V c t p k ⟨_, hn⟩ rfl, blk1_apply V c t k q]

/-- An index of the output array is in point t's block iff each coordinate is in the block's range on its axis. -/
theorem mem_blk (t : Fin cfg2.N) (i : S50000x47.Idx) :
    i ∈ ((cfg2.win 2).blk t).view.set ↔ ∀ a : Fin 2, win2_2.index t a * S5000x47.size a ≤ (i a).val ∧ (i a).val < win2_2.index t a * S5000x47.size a + S5000x47.size a := by
  show i ∈ ((View.whole main_v38).slice (win2_2.rect t)).set ↔ _
  rw [View.set_slice_whole, Rect.mem_set_unit]
  exact Iff.rfl

/-- The ten row blocks cover the output array: row r is in the block of point r / 5000. -/
theorem cover (i : S50000x47.Idx) : ∃ t : Fin cfg2.N, (cfg2.win 2).flush t = true ∧ i ∈ ((cfg2.win 2).blk t).view.set := by
  have hi0 : (i 0).val < 50000 := (i 0).isLt
  have hi1 : (i 1).val < 47 := (i 1).isLt
  obtain ⟨t, ht⟩ : ∃ t : Fin cfg2.N, t.val = (i 0).val / 5000 :=
    ⟨⟨(i 0).val / 5000, by rw [show cfg2.N = 10 from N_2]; omega⟩, rfl⟩
  refine ⟨t, flush2_2 t, ?_⟩
  rw [mem_blk]
  obtain ⟨-, -, -, -, e4, e5⟩ := idx_facts t
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 47 ≤ (i 1).val ∧ (i 1).val < win2_2.index t (1 : Fin 2) * 47 + 47
    rw [e5]; omega

/-- The output array after the region: the product of the staged activations and the weight, whole. -/
theorem final (c : Dev nD) :
    (dat2 (F := Ideal) V c).arrAt 2 cfg2.N
      = Cert.Sage.projK (N := 50000) (D := 128) (C := 47) (V c main_v37) (V c main_arg8) :=
  (dat2 (F := Ideal) V c).arrAt_eq_of_cover 2 (Cert.Sage.projK (N := 50000) (D := 128) (C := 47) (V c main_v37) (V c main_arg8))
    (fun t _ => flushed_eq V c t) cover

end Cert.Sage.Region2

end
-- ==== Proof.LibRowMax.lean ====
/-
  The maximum along the rows of a matrix, read at a row, over the extended reals.

  A kernel takes the maximum of an `[a, b]` block over its second axis by a fold of `max` from the accumulator's
  value; the host takes it by a one-operand reduction whose body is `max`, from its initial value. Both fold a
  commutative and associative operation over the `b` entries of row `p`, so read at `p` both are the fold of `max`
  over `k ↦ x (p, k)`, whatever order the definitions walk the entries in. Stated for any extents `a`, `b`.
-/
import Idealize.ShloMosaic.Lib.ValueIdx
import Idealize.ShloMosaic.PureOps.Ideal.Laws

noncomputable section

namespace Cert.LibRowMax

open Idealize.ShloMosaic Idealize.ShloMosaic.ValueIdx

/-- The source index a reduction over the second axis reads for result row `p` and coordinate `k` is `(p, k)`. -/
theorem lift_row {a b : ℕ} (h : Shape.Reduces ⟨2, ![a, b]⟩ [1] ⟨1, ![a]⟩) (p : Fin a)
    (k : Fin ((⟨2, ![a, b]⟩ : Shape).size 1)) : h.lift (ix1 p) k = ix2 p (⟨k.val, k.isLt⟩ : Fin b) :=
  funext fun ax => Fin.ext (by
    match ax with
    | ⟨0, _⟩ => rfl
    | ⟨1, _⟩ => rfl)

/-- A kernel's maximum of an `[a, b]` block over its second axis is, at row `p`, the fold of `max` from the
    accumulator's value over the `b` entries of that row. -/
theorem multiReduction_maximumf_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_row h p k)))

/-- The host's reduction with body `max` of an `[a, b]` array over its second axis is, at row `p`, the fold of `max`
    from the initial value over the `b` entries of that row. -/
theorem hostReduce_maximumf_row {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (fun f => (Finset.univ : Finset (Fin b)).fold max (init (Shape.Idx.first hu)) f)
      (funext fun k => congrArg x (lift_row h p k)))

end Cert.LibRowMax

end
-- ==== Proof.Region3Pay.lean ====
/-
  The last stage's arithmetic on one block of 5000 rows, read entry by entry.

  From five blocks — the neighbour sums x0 (5000 × 47), the per-row factors x1 (5000 × 1), the activations x2
  (5000 × 128), the weight x3 (128 × 47) and the bias row x4 (1 × 47) — the stage first forms the layer
    z (p, q) = (x0 (p, q) · x1 (p, 0) + ∑ₖ x2 (p, k) · x3 (k, q)) + x4 (0, q)
  and then its row-wise log-softmax: with M p the maximum of row p of z, folded from the pattern of minus infinity,
    (z (p, q) − M p) − log ∑ⱼ exp (z (p, j) − M p).
  The maximum and the sum are taken along the rows and kept as columns, which are then repeated along the rows; read
  at an entry, a kept column is the row's value and the repeated column is the column's entry of that row. The change
  of format before the product is the identity on extended reals and the product starts from zero.
-/
import proofs.«177180_j43800076484795_2_alg».proof.Proof.Gen.KernelIdeal.Skeleton
import proofs.«177180_j43800076484795_2_alg».proof.Proof.Spec
import proofs.«177180_j43800076484795_2_alg».proof.Proof.LibPlainMatmul
import proofs.«177180_j43800076484795_2_alg».proof.Proof.LibKeepdims
import proofs.«177180_j43800076484795_2_alg».proof.Proof.LibRowMax
import Idealize.ShloMosaic.Lib.Pipeline.Value
import Idealize.ShloMosaic.Lib.ValueIdx
import Idealize.ShloMosaic.Lib.ValueLayout

noncomputable section

open Idealize.ShloMosaic Idealize.ShloMosaic.ValueIdx
open scoped BigOperators

namespace Cert.Sage.Region3

open Cert.KernelIdeal Cert.KernelIdeal.Gen

/-! ## The body's arithmetic in two parts -/

/-- The layer before its log-softmax, as the body forms it from its five blocks: the neighbour block scaled row by
    row, plus the product of the activations' block and the weight, plus the bias row repeated down the rows. -/
def preV (x0 : Vec Ideal S5000x47 .f32) (x1 : Vec Ideal S5000x1 .f32) (x2 : Vec Ideal S5000x128 .f32)
    (x3 : Vec Ideal S128x47 .f32) (x4 : Vec Ideal S1x47 .f32) : FVec Ideal S5000x47 .f32 :=
  addf
    (addf
      (mulf (shapeCast S5000x47 x0 shapeCasts_S5000x47_S5000x47)
        (broadcastTo S5000x47 (shapeCast S5000x1 x1 shapeCasts_S5000x1_S5000x1) broadcasts_S5000x1_S5000x47))
      (matmul dot_S5000x128_S128x47_S5000x47_1_0_0_1_n_n none
        (truncf .bf16 (shapeCast S5000x128 x2 shapeCasts_S5000x128_S5000x128) bitsLt_bf16_f32)
        (truncf .bf16 x3 bitsLt_bf16_f32) (constant S5000x47 .f32 0x00000000#32)))
    (broadcastTo S5000x47 (shapeCast S1x47 x4 shapeCasts_S1x47_S1x47) broadcasts_S1x47_S5000x47)

/-- The row maxima of a block, kept as a column. -/
def rowMaxCol (w : FVec Ideal S5000x47 .f32) : FVec Ideal S5000x1 .f32 :=
  shapeCast S5000x1 (multiReduction .maximumf [1] S5000 w 0xFF800000#32 reduces_S5000x47_S5000 (.inl rfl) rfl) shapeCasts_S5000_S5000x1

/-- A block with each row's maximum taken off that row. -/
def shifted (w : FVec Ideal S5000x47 .f32) : FVec Ideal S5000x47 .f32 :=
  subf w (broadcastTo S5000x47 (rowMaxCol w) broadcasts_S5000x1_S5000x47)

/-- The logarithm of each row's sum of exponentials, kept as a column. -/
def logSumCol (s : FVec Ideal S5000x47 .f32) : FVec Ideal S5000x1 .f32 :=
  log (shapeCast S5000x1 (multiReduction .add [1] S5000 (exp s) 0x00000000#32 reduces_S5000x47_S5000 (.inl rfl) rfl) shapeCasts_S5000_S5000x1)

/-- The row-wise log-softmax of a block, as the body forms it. -/
def lsmV (w : FVec Ideal S5000x47 .f32) : FVec Ideal S5000x47 .f32 :=
  subf (shifted w) (broadcastTo S5000x47 (logSumCol (shifted w)) broadcasts_S5000x1_S5000x47)

/-- The body's stored value is the log-softmax part applied to the layer part. -/
theorem pay_eq (x0 : Vec Ideal S5000x47 .f32) (x1 : Vec Ideal S5000x1 .f32) (x2 : Vec Ideal S5000x128 .f32)
    (x3 : Vec Ideal S128x47 .f32) (x4 : Vec Ideal S1x47 .f32) :
    k3_pay1 (F := Ideal) x0 x1 x2 x3 x4 = lsmV (preV x0 x1 x2 x3 x4) := rfl

/-! ## Each part read at an entry -/

/-- The layer part at (p, q): the neighbour entry times row p's factor, plus row p of the activations' block times
    column q of the weight, plus the bias at q. -/
theorem preV_apply (x0 : Vec Ideal S5000x47 .f32) (x1 : Vec Ideal S5000x1 .f32) (x2 : Vec Ideal S5000x128 .f32)
    (x3 : Vec Ideal S128x47 .f32) (x4 : Vec Ideal S1x47 .f32) (p : Fin 5000) (q : Fin 47) :
    preV x0 x1 x2 x3 x4 (ix2 p q)
      = (x0 (ix2 p q) * x1 (ix2 p (0 : Fin 1)) + ∑ k : Fin 128, x2 (ix2 p k) * x3 (ix2 k q)) + x4 (ix2 (0 : Fin 1) q) := by
  unfold preV
  simp only [shapeCast_self]
  rw [addf_apply, addf_apply, mulf_apply, Cert.LibKeepdims.broadcastTo_a1_ab_apply, broadcastTo_1b_ab_apply]
  refine congrArg (fun s => (x0 (ix2 p q) * x1 (ix2 p (0 : Fin 1)) + s) + x4 (ix2 (0 : Fin 1) q)) ?_
  refine (Cert.LibPlainMatmul.matmul_zero_plain _ _ _ p q).trans ?_
  refine Finset.sum_congr rfl fun k _ => ?_
  rw [truncf_apply, truncf_apply]

/-- The column of row maxima at row p is the maximum of that row, folded from the pattern of minus infinity. -/
theorem rowMaxCol_apply (w : FVec Ideal S5000x47 .f32) (p : Fin 5000) (u : Fin 1) :
    rowMaxCol w (ix2 p u) = Cert.Sage.rowMax (fun k : Fin 47 => w (ix2 p k)) :=
  (Cert.LibKeepdims.shapeCast_a_a1_apply _ _ p u).trans
    (Cert.LibRowMax.multiReduction_maximumf_row w _ _ _ _ p)

/-- The shifted block at (p, q) is the entry less its row's maximum. -/
theorem shifted_apply (w : FVec Ideal S5000x47 .f32) (p : Fin 5000) (q : Fin 47) :
    shifted w (ix2 p q) = w (ix2 p q) - Cert.Sage.rowMax (fun k : Fin 47 => w (ix2 p k)) := by
  unfold shifted
  rw [subf_apply, Cert.LibKeepdims.broadcastTo_a1_ab_apply, rowMaxCol_apply]

/-- The column of logarithms at row p is the logarithm of the sum of the exponentials of that row. -/
theorem logSumCol_apply (s : FVec Ideal S5000x47 .f32) (p : Fin 5000) (u : Fin 1) :
    logSumCol s (ix2 p u) = Ideal.log (∑ k : Fin 47, Ideal.exp (s (ix2 p k))) := by
  unfold logSumCol
  show Ideal.log (shapeCast S5000x1 _ shapeCasts_S5000_S5000x1 (ix2 p u)) = _
  rw [Cert.LibKeepdims.shapeCast_a_a1_apply]
  exact congrArg Ideal.log (Cert.LibKeepdims.multiReduction_add_row (exp s) _ _ _ _ p)

/-- The log-softmax part at (p, q) is the log-softmax of row p of the block at q. -/
theorem lsmV_apply (w : FVec Ideal S5000x47 .f32) (p : Fin 5000) (q : Fin 47) :
    lsmV w (ix2 p q) = Cert.Sage.lsm (fun (n : Fin 5000) (j : Fin 47) => w (ix2 n j)) p q := by
  unfold lsmV Cert.Sage.lsm
  rw [subf_apply, Cert.LibKeepdims.broadcastTo_a1_ab_apply, logSumCol_apply]
  simp only [shifted_apply]

/-- The body's stored value at (p, q): the log-softmax, along row p, of the layer formed from the five blocks. -/
theorem pay_apply (x0 : Vec Ideal S5000x47 .f32) (x1 : Vec Ideal S5000x1 .f32) (x2 : Vec Ideal S5000x128 .f32)
    (x3 : Vec Ideal S128x47 .f32) (x4 : Vec Ideal S1x47 .f32) (p : Fin 5000) (q : Fin 47) :
    k3_pay1 (F := Ideal) x0 x1 x2 x3 x4 (ix2 p q)
      = Cert.Sage.lsm (fun (n : Fin 5000) (j : Fin 47) =>
          (x0 (ix2 n j) * x1 (ix2 n (0 : Fin 1)) + ∑ k : Fin 128, x2 (ix2 n k) * x3 (ix2 k j)) + x4 (ix2 (0 : Fin 1) j)) p q := by
  rw [pay_eq, lsmV_apply]
  simp only [preV_apply]

/-- A row's log-softmax reads only that row: two families of rows that agree on one row have the same log-softmax
    along it, whatever the numbers of rows. -/
theorem lsm_row {N N' C : Nat} (z : Fin N → Fin C → EReal) (z' : Fin N' → Fin C → EReal) (n : Fin N) (n' : Fin N')
    (h : z n = z' n') (j : Fin C) : Cert.Sage.lsm z n j = Cert.Sage.lsm z' n' j := by
  unfold Cert.Sage.lsm
  rw [h]

end Cert.Sage.Region3

end
-- ==== Proof.Region3.lean ====
/-
  The last stage of the network: the output layer, written block by block, is the output layer of the whole arrays.

  The stage walks the 50000 rows in ten blocks of 5000. At block t it reads rows 5000·t … 5000·t + 4999 of the
  neighbour sums (47 wide), of the per-row factors (1 wide) and of the hidden activations (128 wide), together with
  the whole 128 × 47 weight and the whole 1 × 47 bias, forms the layer on those rows and its row-wise log-softmax,
  and writes the 5000 × 47 result as rows 5000·t … of the output. Row p of the block is row 5000·t + p of the
  arrays; the layer at a row reads only that row of the three row-blocked arrays; and a row's log-softmax (its
  maximum, its sum of exponentials) reads only that row of the layer. So block t of the result is block t of the
  output layer of the whole arrays, and the ten blocks cover the output: the output ends as that layer, for whatever
  contents the arrays have when the stage is entered.
-/
import proofs.«177180_j43800076484795_2_alg».proof.Proof.KernelIdealFrameP
import proofs.«177180_j43800076484795_2_alg».proof.Proof.Spec
import proofs.«177180_j43800076484795_2_alg».proof.Proof.Region3Pay
import Idealize.ShloMosaic.Lib.Pipeline.Value
import Idealize.ShloMosaic.Lib.ValueIdx

noncomputable section

open Idealize.ShloMosaic Idealize.ShloMosaic.ValueIdx Idealize.ShloMosaic.TcCoe Idealize.SL.Sem
open Idealize.ShloMosaic.Pipeline (Dat)
open scoped BigOperators

namespace Cert.Sage.Region3

open Cert.KernelIdeal Cert.KernelIdeal.Gen

/-- The zero offsets of a whole-buffer access. -/
theorem hz : (![0, 0] : Fin 2 → Nat) = fun _ => 0 := funext fun a => by fin_cases a <;> rfl

/-- The block indices over the grid: at point t the four row-blocked windows sit at block (t, 0), the two
    whole-array windows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

/-- Entry (p, q) of the neighbour sums' block at point t is entry (5000·t + p, q) of their array. -/
theorem blk0_apply (c : Dev nD) (t : Fin cfg3.N) (p : Fin 5000) (q : Fin 47) (n : Fin 50000) (hn : n.val = 5000 * t.val + p.val) :
    (iblk3 (F := Ideal) V c 0 t : Vec Ideal S5000x47 .f32) (ix2 p q) = (V c main_v48 : S50000x47.Idx → EReal) (ix2 n q) := by
  unfold iblk3
  rw [View.read_apply]
  show V c main_v48 _ = V c main_v48 _
  refine congrArg _ ?_
  funext a; apply Fin.ext
  obtain ⟨e0, e1, -⟩ := idx_facts t
  match a with
  | ⟨0, _⟩ => show win3_0.index t (0 : Fin 2) * 5000 + 1 * p.val = n.val; rw [e0, hn]; omega
  | ⟨1, _⟩ => show win3_0.index t (1 : Fin 2) * 47 + 1 * q.val = q.val; rw [e1]; omega

/-- Entry (p, 0) of the row factors' block at point t is entry (5000·t + p, 0) of their array. -/
theorem blk1_apply (c : Dev nD) (t : Fin cfg3.N) (p : Fin 5000) (u : Fin 1) (n : Fin 50000) (hn : n.val = 5000 * t.val + p.val) :
    (iblk3 (F := Ideal) V c 1 t : Vec Ideal S5000x1 .f32) (ix2 p u) = (V c main_v12 : S50000x1.Idx → EReal) (ix2 n u) := by
  unfold iblk3
  rw [View.read_apply]
  show V c main_v12 _ = V c main_v12 _
  refine congrArg _ ?_
  funext a; apply Fin.ext
  obtain ⟨-, -, e0, e1, -⟩ := idx_facts t
  match a with
  | ⟨0, _⟩ => show win3_1.index t (0 : Fin 2) * 5000 + 1 * p.val = n.val; rw [e0, hn]; omega
  | ⟨1, _⟩ => show win3_1.index t (1 : Fin 2) * 1 + 1 * u.val = u.val; rw [e1]; omega

/-- Entry (p, k) of the activations' block at point t is entry (5000·t + p, k) of their array. -/
theorem blk2_apply (c : Dev nD) (t : Fin cfg3.N) (p : Fin 5000) (k : Fin 128) (n : Fin 50000) (hn : n.val = 5000 * t.val + p.val) :
    (iblk3 (F := Ideal) V c 2 t : Vec Ideal S5000x128 .f32) (ix2 p k) = (V c main_v37 : S50000x128.Idx → EReal) (ix2 n k) := by
  unfold iblk3
  rw [View.read_apply]
  show V c main_v37 _ = V c main_v37 _
  refine congrArg _ ?_
  funext a; apply Fin.ext
  obtain ⟨-, -, -, -, e0, e1, -⟩ := idx_facts t
  match a with
  | ⟨0, _⟩ => show win3_2.index t (0 : Fin 2) * 5000 + 1 * p.val = n.val; rw [e0, hn]; omega
  | ⟨1, _⟩ => show win3_2.index t (1 : Fin 2) * 128 + 1 * k.val = k.val; rw [e1]; omega

/-- The weight's block is its whole array at every point. -/
theorem blk3_apply (c : Dev nD) (t : Fin cfg3.N) (k : Fin 128) (q : Fin 47) :
    (iblk3 (F := Ideal) V c 3 t : Vec Ideal S128x47 .f32) (ix2 k q) = (V c main_arg9 : S128x47.Idx → EReal) (ix2 k q) := by
  unfold iblk3
  rw [View.read_apply]
  show V c main_arg9 _ = V c main_arg9 _
  refine congrArg _ ?_
  funext a; apply Fin.ext
  obtain ⟨-, -, -, -, -, -, e0, e1, -⟩ := idx_facts t
  match a with
  | ⟨0, _⟩ => show win3_3.index t (0 : Fin 2) * 128 + 1 * k.val = k.val; rw [e0]; omega
  | ⟨1, _⟩ => show win3_3.index t (1 : Fin 2) * 47 + 1 * q.val = q.val; rw [e1]; omega

/-- The bias row's block is its whole array at every point. -/
theorem blk4_apply (c : Dev nD) (t : Fin cfg3.N) (u : Fin 1) (q : Fin 47) :
    (iblk3 (F := Ideal) V c 4 t : Vec Ideal S1x47 .f32) (ix2 u q) = (V c main_v15 : S1x47.Idx → EReal) (ix2 u q) := by
  unfold iblk3
  rw [View.read_apply]
  show V c main_v15 _ = V c main_v15 _
  refine congrArg _ ?_
  funext a; apply Fin.ext
  obtain ⟨-, -, -, -, -, -, -, -, e0, e1, -⟩ := idx_facts t
  match a with
  | ⟨0, _⟩ => show win3_4.index t (0 : Fin 2) * 1 + 1 * u.val = u.val; rw [e0]; omega
  | ⟨1, _⟩ => show win3_4.index t (1 : Fin 2) * 47 + 1 * q.val = q.val; rw [e1]; omega

/-- Entry (p, q) of the output window's block at point t sits at (5000·t + p, q) of its array. -/
theorem emb5 (t : Fin cfg3.N) (p : Fin 5000) (q : Fin 47) (n : Fin 50000) (hn : n.val = 5000 * t.val + p.val) :
    ((cfg3.win 5).blk t).view.emb (ix2 p q) = (ix2 n q : S50000x47.Idx) := by
  funext a; apply Fin.ext
  obtain ⟨-, -, -, -, -, -, -, -, -, -, e0, e1⟩ := idx_facts t
  match a with
  | ⟨0, _⟩ => show win3_5.index t (0 : Fin 2) * 5000 + 1 * p.val = n.val; rw [e0, hn]; omega
  | ⟨1, _⟩ => show win3_5.index t (1 : Fin 2) * 47 + 1 * q.val = q.val; rw [e1]; omega

/-- What point t writes back is block t of the output layer of the whole arrays: row p of the block is row
    5000·t + p of the arrays, the layer at a row reads only that row of the row-blocked arrays, and a row's
    log-softmax reads only that row of the layer. -/
theorem flushed_eq (c : Dev nD) (t : Fin cfg3.N) :
    (dat3 (F := Ideal) V c).flushed 5 t
      = ((cfg3.win 5).blk t).view.read (Elt Ideal)
          (Cert.Sage.outK (N := 50000) (D := 128) (C := 47) (V c main_v48) (V c main_v12) (V c main_v37) (V c main_arg9) (V c main_v15)) := by
  show (cfg3.win 5).cut (grid3.coords t) ((dat3 V c).after 5 t) = _
  rw [after3_5]
  unfold out3_5
  rw [View.canon_unit_zero hz]
  simp only [View.ld_unit_zero (S := S5000x47) hz, View.ld_unit_zero (S := S5000x1) hz,
    View.ld_unit_zero (S := S5000x128) hz, View.ld_unit_zero (S := S128x47) hz, View.ld_unit_zero (S := S1x47) hz]
  funext j
  obtain ⟨p, q, rfl⟩ : ∃ (p : Fin 5000) (q : Fin 47), j = (ix2 p q : S5000x47.Idx) := ⟨j 0, j 1, eq_ix2 j⟩
  have ht : t.val < 10 := t.isLt.trans_eq N_3
  have hn : 5000 * t.val + p.val < 50000 := by have := p.isLt; omega
  show k3_pay1 (iblk3 V c 0 t) (iblk3 V c 1 t) (iblk3 V c 2 t) (iblk3 V c 3 t) (iblk3 V c 4 t) (ix2 p q)
    = Cert.Sage.outK (N := 50000) (D := 128) (C := 47) (V c main_v48) (V c main_v12) (V c main_v37) (V c main_arg9) (V c main_v15)
        (((cfg3.win 5).blk t).view.emb (ix2 p q))
  rw [emb5 t p q ⟨_, hn⟩ rfl, Cert.Sage.outK_apply]
  refine (pay_apply _ _ _ _ _ p q).trans ?_
  refine lsm_row _ _ p ⟨_, hn⟩ ?_ q
  funext r
  unfold Cert.Sage.pre3K
  beta_reduce
  rw [blk0_apply V c t p r ⟨_, hn⟩ rfl, blk1_apply V c t p 0 ⟨_, hn⟩ rfl, blk4_apply V c t 0 r]
  refine congrArg (fun s => (_ + s) + _) (Finset.sum_congr rfl fun k _ => ?_)
  rw [blk2_apply V c t p k ⟨_, hn⟩ rfl, blk3_apply V c t k r]

/-- An index of the output array is in point t's block iff each coordinate is in the block's range on its axis. -/
theorem mem_blk (t : Fin cfg3.N) (i : S50000x47.Idx) :
    i ∈ ((cfg3.win 5).blk t).view.set ↔ ∀ a : Fin 2, win3_5.index t a * S5000x47.size a ≤ (i a).val ∧ (i a).val < win3_5.index t a * S5000x47.size a + S5000x47.size a := by
  show i ∈ ((View.whole main_v49).slice (win3_5.rect t)).set ↔ _
  rw [View.set_slice_whole, Rect.mem_set_unit]
  exact Iff.rfl

/-- The ten row blocks cover the output array: row r is in the block of point r / 5000. -/
theorem cover (i : S50000x47.Idx) : ∃ t : Fin cfg3.N, (cfg3.win 5).flush t = true ∧ i ∈ ((cfg3.win 5).blk t).view.set := by
  have hi0 : (i 0).val < 50000 := (i 0).isLt
  have hi1 : (i 1).val < 47 := (i 1).isLt
  obtain ⟨t, ht⟩ : ∃ t : Fin cfg3.N, t.val = (i 0).val / 5000 :=
    ⟨⟨(i 0).val / 5000, by rw [show cfg3.N = 10 from N_3]; omega⟩, rfl⟩
  refine ⟨t, flush3_5 t, ?_⟩
  rw [mem_blk]
  obtain ⟨-, -, -, -, -, -, -, -, -, -, e0, e1⟩ := idx_facts t
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 47 ≤ (i 1).val ∧ (i 1).val < win3_5.index t (1 : Fin 2) * 47 + 47
    rw [e1]; omega

/-- The output array after the region: the output layer of the five staged arrays, whole. -/
theorem final (c : Dev nD) :
    (dat3 (F := Ideal) V c).arrAt 5 cfg3.N
      = Cert.Sage.outK (N := 50000) (D := 128) (C := 47) (V c main_v48) (V c main_v12) (V c main_v37) (V c main_arg9) (V c main_v15) :=
  (dat3 (F := Ideal) V c).arrAt_eq_of_cover 5
    (Cert.Sage.outK (N := 50000) (D := 128) (C := 47) (V c main_v48) (V c main_v12) (V c main_v37) (V c main_arg9) (V c main_v15))
    (fun t _ => flushed_eq V c t) cover

end Cert.Sage.Region3

end
-- ==== Proof.KHost.lean ====
/-
  The idealized kernel's result array, read back through the fold of its host stretches and its four regions to
  the launch memory, is the network `modelK` of the eleven arguments.
-/
import proofs.«177180_j43800076484795_2_alg».proof.Proof.KRun
import proofs.«177180_j43800076484795_2_alg».proof.Proof.Model
import proofs.«177180_j43800076484795_2_alg».proof.Proof.Region0
import proofs.«177180_j43800076484795_2_alg».proof.Proof.Region1
import proofs.«177180_j43800076484795_2_alg».proof.Proof.Region2
import proofs.«177180_j43800076484795_2_alg».proof.Proof.Region3

set_option maxRecDepth 16384

noncomputable section

namespace Cert.Sage.KHost

open Cert.KernelIdeal Cert.KernelIdeal.Gen Cert.Sage
open Idealize.ShloMosaic Idealize.ShloMosaic.TcCoe Idealize.ShloMosaic.Tactic Idealize.ShloMosaic.ValueIdx
open Idealize.SL Idealize.SL.Sem
open Idealize.ShloMosaic.StableHlo
open Idealize.ShloMosaic.Pipeline (Dat Cfg Window BodyObligation cellOf)

/-- A buffer that no operation of a host stretch writes keeps its contents across the stretch. -/
local macro "host_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The four regions' output arrays as whole-array functions of their entry contents. -/
theorem hf0 (V : ((c : Dev nD) → (b : Ref sig .tc) → Buf (Elt Ideal) ((c : Thread nD τ).loc b))) (c : Dev nD) : (dat0 (F := Ideal) V c).arrAt 6 cfg0.N
    = denseK (N := 50000) (D := 128) (C := 128) (V c main_v25) (V c main_v12) (V c main_arg0) (V c main_arg2) (V c main_arg3) (V c main_v13) :=
  Cert.Sage.Region0.final V c
theorem hf1 (V : ((c : Dev nD) → (b : Ref sig .tc) → Buf (Elt Ideal) ((c : Thread nD τ).loc b))) (c : Dev nD) : (dat1 (F := Ideal) V c).arrAt 6 cfg1.N
    = denseK (N := 50000) (D := 128) (C := 128) (V c main_v36) (V c main_v12) (V c main_v26) (V c main_arg5) (V c main_arg6) (V c main_v14) :=
  Cert.Sage.Region1.final V c
theorem hf2 (V : ((c : Dev nD) → (b : Ref sig .tc) → Buf (Elt Ideal) ((c : Thread nD τ).loc b))) (c : Dev nD) : (dat2 (F := Ideal) V c).arrAt 2 cfg2.N
    = projK (N := 50000) (D := 128) (C := 47) (V c main_v37) (V c main_arg8) :=
  Cert.Sage.Region2.final V c
theorem hf3 (V : ((c : Dev nD) → (b : Ref sig .tc) → Buf (Elt Ideal) ((c : Thread nD τ).loc b))) (c : Dev nD) : (dat3 (F := Ideal) V c).arrAt 5 cfg3.N
    = outK (N := 50000) (D := 128) (C := 47) (V c main_v48) (V c main_v12) (V c main_v37) (V c main_arg9) (V c main_v15) :=
  Cert.Sage.Region3.final V c

variable (m : (ℓ : Loc nD τ sig) → Buf (Elt Ideal) ℓ) (ρ : Dev nD → PrngReg) (c : Dev nD)

/-! ## After the first host stretch -/

theorem W1_v25 : (W1 m ρ c (Proc.devRef .tc main_v25) : S50000x128.Idx → EReal)
    = agg128 (m ((c : Thread nD τ).loc main_arg1)) (m ((c : Thread nD τ).loc main_arg0)) := by
  show StableHlo.after hostOps0 (W0 m ρ c) (Proc.devRef .tc main_v25) = _
  after_results_simp
  rfl

theorem W1_v12 : (W1 m ρ c (Proc.devRef .tc main_v12) : S50000x1.Idx → EReal) = icCol (m ((c : Thread nD τ).loc main_arg1)) := by
  show StableHlo.after hostOps0 (W0 m ρ c) (Proc.devRef .tc main_v12) = _
  after_results_simp
  rfl

theorem W1_v13 : (W1 m ρ c (Proc.devRef .tc main_v13) : S1x128.Idx → EReal) = row128 (m ((c : Thread nD τ).loc main_arg4)) := by
  show StableHlo.after hostOps0 (W0 m ρ c) (Proc.devRef .tc main_v13) = _
  after_results_simp
  rfl

theorem W1_v14 : (W1 m ρ c (Proc.devRef .tc main_v14) : S1x128.Idx → EReal) = row128 (m ((c : Thread nD τ).loc main_arg7)) := by
  show StableHlo.after hostOps0 (W0 m ρ c) (Proc.devRef .tc main_v14) = _
  after_results_simp
  rfl

theorem W1_v15 : (W1 m ρ c (Proc.devRef .tc main_v15) : S1x47.Idx → EReal) = row47 (m ((c : Thread nD τ).loc main_arg10)) := by
  show StableHlo.after hostOps0 (W0 m ρ c) (Proc.devRef .tc main_v15) = _
  after_results_simp
  rfl

theorem W1_v1 : (W1 m ρ c (Proc.devRef .tc main_v1) : IVec S800000 32) = srcVec (m ((c : Thread nD τ).loc main_arg1)) := by
  show StableHlo.after hostOps0 (W0 m ρ c) (Proc.devRef .tc main_v1) = _
  after_results_simp
  rfl

theorem W1_v3 : (W1 m ρ c (Proc.devRef .tc main_v3) : IVec S800000 32) = dstVec (m ((c : Thread nD τ).loc main_arg1)) := by
  show StableHlo.after hostOps0 (W0 m ρ c) (Proc.devRef .tc main_v3) = _
  after_results_simp
  rfl

/-- An argument array is as launched after the first stretch. -/
theorem W1_arg (b : Ref sig .tc) (hb : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ hb

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0
theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0

/-! ## Buffers carried unchanged across regions and stretches -/

theorem W2_v1 : (W2 m ρ c (Proc.devRef .tc main_v1) : IVec S800000 32) = srcVec (m ((c : Thread nD τ).loc main_arg1)) :=
  (W2_of_ne m ρ c main_v1 (by decide)).trans (W1_v1 m ρ c)
theorem W3_v1 : (W3 m ρ c (Proc.devRef .tc main_v1) : IVec S800000 32) = srcVec (m ((c : Thread nD τ).loc main_arg1)) :=
  (show StableHlo.after hostOps1 (W2 m ρ c) (Proc.devRef .tc main_v1) = W2 m ρ c (Proc.devRef .tc main_v1) by host_keeps hostOps1).trans (W2_v1 m ρ c)
theorem W4_v1 : (W4 m ρ c (Proc.devRef .tc main_v1) : IVec S800000 32) = srcVec (m ((c : Thread nD τ).loc main_arg1)) :=
  (W4_of_ne m ρ c main_v1 (by decide)).trans (W3_v1 m ρ c)
theorem W5_v1 : (W5 m ρ c (Proc.devRef .tc main_v1) : IVec S800000 32) = srcVec (m ((c : Thread nD τ).loc main_arg1)) :=
  (W5_of_ne m ρ c main_v1 (by decide)).trans (W4_v1 m ρ c)

theorem W2_v3 : (W2 m ρ c (Proc.devRef .tc main_v3) : IVec S800000 32) = dstVec (m ((c : Thread nD τ).loc main_arg1)) :=
  (W2_of_ne m ρ c main_v3 (by decide)).trans (W1_v3 m ρ c)
theorem W3_v3 : (W3 m ρ c (Proc.devRef .tc main_v3) : IVec S800000 32) = dstVec (m ((c : Thread nD τ).loc main_arg1)) :=
  (show StableHlo.after hostOps1 (W2 m ρ c) (Proc.devRef .tc main_v3) = W2 m ρ c (Proc.devRef .tc main_v3) by host_keeps hostOps1).trans (W2_v3 m ρ c)
theorem W4_v3 : (W4 m ρ c (Proc.devRef .tc main_v3) : IVec S800000 32) = dstVec (m ((c : Thread nD τ).loc main_arg1)) :=
  (W4_of_ne m ρ c main_v3 (by decide)).trans (W3_v3 m ρ c)
theorem W5_v3 : (W5 m ρ c (Proc.devRef .tc main_v3) : IVec S800000 32) = dstVec (m ((c : Thread nD τ).loc main_arg1)) :=
  (W5_of_ne m ρ c main_v3 (by decide)).trans (W4_v3 m ρ c)

theorem W2_v12 : (W2 m ρ c (Proc.devRef .tc main_v12) : S50000x1.Idx → EReal) = icCol (m ((c : Thread nD τ).loc main_arg1)) :=
  ((W2_arr m ρ c 1).trans (((dat0 (V1 m ρ) c).arrAt_in 1 rfl _).trans (A_eq0 (V1 m ρ) c 1))).trans (W1_v12 m ρ c)
theorem W3_v12 : (W3 m ρ c (Proc.devRef .tc main_v12) : S50000x1.Idx → EReal) = icCol (m ((c : Thread nD τ).loc main_arg1)) :=
  (show StableHlo.after hostOps1 (W2 m ρ c) (Proc.devRef .tc main_v12) = W2 m ρ c (Proc.devRef .tc main_v12) by host_keeps hostOps1).trans (W2_v12 m ρ c)
theorem W4_v12 : (W4 m ρ c (Proc.devRef .tc main_v12) : S50000x1.Idx → EReal) = icCol (m ((c : Thread nD τ).loc main_arg1)) :=
  ((W4_arr m ρ c 1).trans (((dat1 (V3 m ρ) c).arrAt_in 1 rfl _).trans (A_eq1 (V3 m ρ) c 1))).trans (W3_v12 m ρ c)
theorem W5_v12 : (W5 m ρ c (Proc.devRef .tc main_v12) : S50000x1.Idx → EReal) = icCol (m ((c : Thread nD τ).loc main_arg1)) :=
  (W5_of_ne m ρ c main_v12 (by decide)).trans (W4_v12 m ρ c)
theorem W6_v12 : (W6 m ρ c (Proc.devRef .tc main_v12) : S50000x1.Idx → EReal) = icCol (m ((c : Thread nD τ).loc main_arg1)) :=
  (show StableHlo.after hostOps3 (W5 m ρ c) (Proc.devRef .tc main_v12) = W5 m ρ c (Proc.devRef .tc main_v12) by host_keeps hostOps3).trans (W5_v12 m ρ c)

theorem W2_v14 : (W2 m ρ c (Proc.devRef .tc main_v14) : S1x128.Idx → EReal) = row128 (m ((c : Thread nD τ).loc main_arg7)) :=
  (W2_of_ne m ρ c main_v14 (by decide)).trans (W1_v14 m ρ c)
theorem W3_v14 : (W3 m ρ c (Proc.devRef .tc main_v14) : S1x128.Idx → EReal) = row128 (m ((c : Thread nD τ).loc main_arg7)) :=
  (show StableHlo.after hostOps1 (W2 m ρ c) (Proc.devRef .tc main_v14) = W2 m ρ c (Proc.devRef .tc main_v14) by host_keeps hostOps1).trans (W2_v14 m ρ c)

theorem W2_v15 : (W2 m ρ c (Proc.devRef .tc main_v15) : S1x47.Idx → EReal) = row47 (m ((c : Thread nD τ).loc main_arg10)) :=
  (W2_of_ne m ρ c main_v15 (by decide)).trans (W1_v15 m ρ c)
theorem W3_v15 : (W3 m ρ c (Proc.devRef .tc main_v15) : S1x47.Idx → EReal) = row47 (m ((c : Thread nD τ).loc main_arg10)) :=
  (show StableHlo.after hostOps1 (W2 m ρ c) (Proc.devRef .tc main_v15) = W2 m ρ c (Proc.devRef .tc main_v15) by host_keeps hostOps1).trans (W2_v15 m ρ c)
theorem W4_v15 : (W4 m ρ c (Proc.devRef .tc main_v15) : S1x47.Idx → EReal) = row47 (m ((c : Thread nD τ).loc main_arg10)) :=
  (W4_of_ne m ρ c main_v15 (by decide)).trans (W3_v15 m ρ c)
theorem W5_v15 : (W5 m ρ c (Proc.devRef .tc main_v15) : S1x47.Idx → EReal) = row47 (m ((c : Thread nD τ).loc main_arg10)) :=
  (W5_of_ne m ρ c main_v15 (by decide)).trans (W4_v15 m ρ c)
theorem W6_v15 : (W6 m ρ c (Proc.devRef .tc main_v15) : S1x47.Idx → EReal) = row47 (m ((c : Thread nD τ).loc main_arg10)) :=
  (show StableHlo.after hostOps3 (W5 m ρ c) (Proc.devRef .tc main_v15) = W5 m ρ c (Proc.devRef .tc main_v15) by host_keeps hostOps3).trans (W5_v15 m ρ c)

theorem W2_arg5 : (W2 m ρ c (Proc.devRef .tc main_arg5) : S128x128.Idx → EReal) = (m ((c : Thread nD τ).loc main_arg5)) :=
  (W2_of_ne m ρ c main_arg5 (by decide)).trans (W1_arg5 m ρ c)
theorem W3_arg5 : (W3 m ρ c (Proc.devRef .tc main_arg5) : S128x128.Idx → EReal) = (m ((c : Thread nD τ).loc main_arg5)) :=
  (show StableHlo.after hostOps1 (W2 m ρ c) (Proc.devRef .tc main_arg5) = W2 m ρ c (Proc.devRef .tc main_arg5) by host_keeps hostOps1).trans (W2_arg5 m ρ c)

theorem W2_arg6 : (W2 m ρ c (Proc.devRef .tc main_arg6) : S128x128.Idx → EReal) = (m ((c : Thread nD τ).loc main_arg6)) :=
  (W2_of_ne m ρ c main_arg6 (by decide)).trans (W1_arg6 m ρ c)
theorem W3_arg6 : (W3 m ρ c (Proc.devRef .tc main_arg6) : S128x128.Idx → EReal) = (m ((c : Thread nD τ).loc main_arg6)) :=
  (show StableHlo.after hostOps1 (W2 m ρ c) (Proc.devRef .tc main_arg6) = W2 m ρ c (Proc.devRef .tc main_arg6) by host_keeps hostOps1).trans (W2_arg6 m ρ c)

theorem W2_arg8 : (W2 m ρ c (Proc.devRef .tc main_arg8) : S128x47.Idx → EReal) = (m ((c : Thread nD τ).loc main_arg8)) :=
  (W2_of_ne m ρ c main_arg8 (by decide)).trans (W1_arg8 m ρ c)
theorem W3_arg8 : (W3 m ρ c (Proc.devRef .tc main_arg8) : S128x47.Idx → EReal) = (m ((c : Thread nD τ).loc main_arg8)) :=
  (show StableHlo.after hostOps1 (W2 m ρ c) (Proc.devRef .tc main_arg8) = W2 m ρ c (Proc.devRef .tc main_arg8) by host_keeps hostOps1).trans (W2_arg8 m ρ c)
theorem W4_arg8 : (W4 m ρ c (Proc.devRef .tc main_arg8) : S128x47.Idx → EReal) = (m ((c : Thread nD τ).loc main_arg8)) :=
  (W4_of_ne m ρ c main_arg8 (by decide)).trans (W3_arg8 m ρ c)

theorem W2_arg9 : (W2 m ρ c (Proc.devRef .tc main_arg9) : S128x47.Idx → EReal) = (m ((c : Thread nD τ).loc main_arg9)) :=
  (W2_of_ne m ρ c main_arg9 (by decide)).trans (W1_arg9 m ρ c)
theorem W3_arg9 : (W3 m ρ c (Proc.devRef .tc main_arg9) : S128x47.Idx → EReal) = (m ((c : Thread nD τ).loc main_arg9)) :=
  (show StableHlo.after hostOps1 (W2 m ρ c) (Proc.devRef .tc main_arg9) = W2 m ρ c (Proc.devRef .tc main_arg9) by host_keeps hostOps1).trans (W2_arg9 m ρ c)
theorem W4_arg9 : (W4 m ρ c (Proc.devRef .tc main_arg9) : S128x47.Idx → EReal) = (m ((c : Thread nD τ).loc main_arg9)) :=
  (W4_of_ne m ρ c main_arg9 (by decide)).trans (W3_arg9 m ρ c)
theorem W5_arg9 : (W5 m ρ c (Proc.devRef .tc main_arg9) : S128x47.Idx → EReal) = (m ((c : Thread nD τ).loc main_arg9)) :=
  (W5_of_ne m ρ c main_arg9 (by decide)).trans (W4_arg9 m ρ c)
theorem W6_arg9 : (W6 m ρ c (Proc.devRef .tc main_arg9) : S128x47.Idx → EReal) = (m ((c : Thread nD τ).loc main_arg9)) :=
  (show StableHlo.after hostOps3 (W5 m ρ c) (Proc.devRef .tc main_arg9) = W5 m ρ c (Proc.devRef .tc main_arg9) by host_keeps hostOps3).trans (W5_arg9 m ρ c)

/-! ## Region 0: the first hidden layer -/

theorem W2_v26 : (W2 m ρ c (Proc.devRef .tc main_v26) : S50000x128.Idx → EReal) = (hidK (m ((c : Thread nD τ).loc main_arg1)) (m ((c : Thread nD τ).loc main_arg0)) (m ((c : Thread nD τ).loc main_arg2)) (m ((c : Thread nD τ).loc main_arg3)) (m ((c : Thread nD τ).loc main_arg4))) := by
  refine ((W2_arr m ρ c 6).trans (hf0 (V1 m ρ) c)).trans ?_
  show denseK (N := 50000) (D := 128) (C := 128) (W1 m ρ c (Proc.devRef .tc main_v25)) (W1 m ρ c (Proc.devRef .tc main_v12)) (W1 m ρ c (Proc.devRef .tc main_arg0)) (W1 m ρ c (Proc.devRef .tc main_arg2)) (W1 m ρ c (Proc.devRef .tc main_arg3)) (W1 m ρ c (Proc.devRef .tc main_v13)) = _
  rw [W1_v25, W1_v12, W1_arg0, W1_arg2, W1_arg3, W1_v13]
  rfl

theorem W3_v26 : (W3 m ρ c (Proc.devRef .tc main_v26) : S50000x128.Idx → EReal) = (hidK (m ((c : Thread nD τ).loc main_arg1)) (m ((c : Thread nD τ).loc main_arg0)) (m ((c : Thread nD τ).loc main_arg2)) (m ((c : Thread nD τ).loc main_arg3)) (m ((c : Thread nD τ).loc main_arg4))) :=
  (show StableHlo.after hostOps1 (W2 m ρ c) (Proc.devRef .tc main_v26) = W2 m ρ c (Proc.devRef .tc main_v26) by host_keeps hostOps1).trans (W2_v26 m ρ c)

/-- The neighbour sums of the first hidden layer, after the second host stretch. -/
theorem W3_v36 : (W3 m ρ c (Proc.devRef .tc main_v36) : S50000x128.Idx → EReal) = agg128 (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) := by
  show StableHlo.after hostOps1 (W2 m ρ c) (Proc.devRef .tc main_v36) = _
  after_results_simp
  rw [W2_v1, W2_v3, W2_v26]
  rfl

/-! ## Region 1: the second hidden layer -/

theorem W4_v37 : (W4 m ρ c (Proc.devRef .tc main_v37) : S50000x128.Idx → EReal) = (hidK (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine ((W4_arr m ρ c 6).trans (hf1 (V3 m ρ) c)).trans ?_
  show denseK (N := 50000) (D := 128) (C := 128) (W3 m ρ c (Proc.devRef .tc main_v36)) (W3 m ρ c (Proc.devRef .tc main_v12)) (W3 m ρ c (Proc.devRef .tc main_v26)) (W3 m ρ c (Proc.devRef .tc main_arg5)) (W3 m ρ c (Proc.devRef .tc main_arg6)) (W3 m ρ c (Proc.devRef .tc main_v14)) = _
  rw [W3_v36, W3_v12, W3_v26, W3_arg5, W3_arg6, W3_v14]
  rfl

/-! ## Region 2: the projection -/

theorem W5_v37 : (W5 m ρ c (Proc.devRef .tc main_v37) : S50000x128.Idx → EReal) = (hidK (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  ((W5_arr m ρ c 0).trans (((dat2 (V4 m ρ) c).arrAt_in 0 rfl _).trans (A_eq2 (V4 m ρ) c 0))).trans (W4_v37 m ρ c)

theorem W5_v38 : (W5 m ρ c (Proc.devRef .tc main_v38) : S50000x47.Idx → EReal) = (projK (N := 50000) (D := 128) (C := 47) (hidK (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8))) := by
  refine ((W5_arr m ρ c 2).trans (hf2 (V4 m ρ) c)).trans ?_
  show projK (N := 50000) (D := 128) (C := 47) (W4 m ρ c (Proc.devRef .tc main_v37)) (W4 m ρ c (Proc.devRef .tc main_arg8)) = _
  rw [W4_v37, W4_arg8]

theorem W6_v37 : (W6 m ρ c (Proc.devRef .tc main_v37) : S50000x128.Idx → EReal) = (hidK (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) :=
  (show StableHlo.after hostOps3 (W5 m ρ c) (Proc.devRef .tc main_v37) = W5 m ρ c (Proc.devRef .tc main_v37) by host_keeps hostOps3).trans (W5_v37 m ρ c)

/-- The neighbour sums of the projected features, after the last host stretch. -/
theorem W6_v48 : (W6 m ρ c (Proc.devRef .tc main_v48) : S50000x47.Idx → EReal) = agg47 (m ((c : Thread nD τ).loc main_arg1)) (projK (N := 50000) (D := 128) (C := 47) (hidK (m ((c : Thread nD τ).loc main_arg1)) (hidK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8))) := by
  show StableHlo.after hostOps3 (W5 m ρ c) (Proc.devRef .tc main_v48) = _
  after_results_simp
  rw [W5_v1, W5_v3, W5_v38]
  rfl

/-! ## Region 3: the output layer -/

/-- The result array after the run is the kernel's network of the launch contents of the arguments. -/
theorem W7_v49 : (W7 m ρ c (Proc.devRef .tc main_v49) : S50000x47.Idx → EReal)
    = modelK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W7_arr m ρ c 5).trans (hf3 (V6 m ρ) c)).trans ?_
  show outK (N := 50000) (D := 128) (C := 47) (W6 m ρ c (Proc.devRef .tc main_v48)) (W6 m ρ c (Proc.devRef .tc main_v12)) (W6 m ρ c (Proc.devRef .tc main_v37)) (W6 m ρ c (Proc.devRef .tc main_arg9)) (W6 m ρ c (Proc.devRef .tc main_v15)) = _
  rw [W6_v48, W6_v12, W6_v37, W6_arg9, W6_v15]
  rfl

end Cert.Sage.KHost

end
-- ==== Proof.FiniteInputs.lean ====
/-
  From the precondition to finiteness.  The precondition says that, for each float argument `x`,
  `|x| < +∞` holds at every index (the conjunction of one "all" per argument).  Over the extended reals
  `|x| = max x (-x)`, and `max x (-x) < ⊤` excludes both infinities, so every entry is a real number.
-/
import proofs.«177180_j43800076484795_2_alg».proof.Defs
import proofs.«177180_j43800076484795_2_alg».proof.Proof.Gen.Pre_finite_inputs
import proofs.«177180_j43800076484795_2_alg».proof.Proof.Gen.KernelIdeal
import proofs.«177180_j43800076484795_2_alg».proof.Proof.LibFinite
import Idealize.ShloMosaic.Lib.ReduceAll
import Idealize.ShloMosaic.Lib.ValueIdx

noncomputable section

namespace Cert.Sage

open Idealize.ShloMosaic Idealize.SL.Sem Idealize.ShloMosaic.ValueIdx

/-- The shape of rank zero has one index. -/
instance subsingleton_scalarIdx : Subsingleton (⟨0, ![]⟩ : Shape).Idx := ⟨fun _ _ => funext fun d => d.elim0⟩

/-- The f32 pattern of plus infinity denotes `⊤`. -/
theorem posInf_eq_top : Ideal.ofBits .f32 0x7F800000#32 = (⊤ : EReal) := by
  simp [Ideal.ofBits, Ideal.ieee]

/-- An extended real whose absolute value is below plus infinity is a real number. -/
theorem isReal_of_abs_lt (x : EReal) (h : max x (-x) < Ideal.ofBits .f32 0x7F800000#32) : LibFinite.IsReal x := by
  rw [posInf_eq_top] at h
  induction x using EReal.rec with
  | bot => exact absurd h (by simp)
  | top => exact absurd h (by simp)
  | coe r => exact ⟨r, rfl⟩

/-- One "all (|x| < +∞)" of the precondition, read back: every entry of `x` is a real number. -/
theorem allReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ix0 = 1#1) :
    LibFinite.AllReal x := by
  intro i
  have hi := Host.reduce_andi_all _ _ hr hu ix0 e i
  have hi' : BitVec.ofBool (decide (max (x i) (-(x i)) < Ideal.ofBits .f32 0x7F800000#32)) = 1#1 := hi
  refine isReal_of_abs_lt _ ?_
  by_contra hlt
  rw [decide_eq_false hlt] at hi'
  exact absurd hi' (by decide)

set_option maxHeartbeats 400000 in
/-- Under the precondition every float argument of the program is finite everywhere. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    LibFinite.AllReal (m ((c.tc : Thread Cert.KernelIdeal.nD Cert.KernelIdeal.τ).loc Cert.KernelIdeal.main_arg0))
    ∧ LibFinite.AllReal (m ((c.tc : Thread Cert.KernelIdeal.nD Cert.KernelIdeal.τ).loc Cert.KernelIdeal.main_arg2))
    ∧ LibFinite.AllReal (m ((c.tc : Thread Cert.KernelIdeal.nD Cert.KernelIdeal.τ).loc Cert.KernelIdeal.main_arg3))
    ∧ LibFinite.AllReal (m ((c.tc : Thread Cert.KernelIdeal.nD Cert.KernelIdeal.τ).loc Cert.KernelIdeal.main_arg4))
    ∧ LibFinite.AllReal (m ((c.tc : Thread Cert.KernelIdeal.nD Cert.KernelIdeal.τ).loc Cert.KernelIdeal.main_arg5))
    ∧ LibFinite.AllReal (m ((c.tc : Thread Cert.KernelIdeal.nD Cert.KernelIdeal.τ).loc Cert.KernelIdeal.main_arg6))
    ∧ LibFinite.AllReal (m ((c.tc : Thread Cert.KernelIdeal.nD Cert.KernelIdeal.τ).loc Cert.KernelIdeal.main_arg7))
    ∧ LibFinite.AllReal (m ((c.tc : Thread Cert.KernelIdeal.nD Cert.KernelIdeal.τ).loc Cert.KernelIdeal.main_arg8))
    ∧ LibFinite.AllReal (m ((c.tc : Thread Cert.KernelIdeal.nD Cert.KernelIdeal.τ).loc Cert.KernelIdeal.main_arg9))
    ∧ LibFinite.AllReal (m ((c.tc : Thread Cert.KernelIdeal.nD Cert.KernelIdeal.τ).loc Cert.KernelIdeal.main_arg10)) := by
  have h := congrFun (hpre c) ix0
  dsimp only [Cert.Pre_finite_inputs.fn, Cert.Pre_finite_inputs.fn_part1, Cert.Pre_finite_inputs.fn_part2] at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨allReal_of_all _ _ _ _ h0, allReal_of_all _ _ _ _ h2, allReal_of_all _ _ _ _ h3, allReal_of_all _ _ _ _ h4,
    allReal_of_all _ _ _ _ h5, allReal_of_all _ _ _ _ h6, allReal_of_all _ _ _ _ h7, allReal_of_all _ _ _ _ h8,
    allReal_of_all _ _ _ _ h9, allReal_of_all _ _ _ _ h10⟩

end Cert.Sage

end
-- ==== Proof.Algebra.lean ====
/-
  The algebra of a mean-aggregation layer over the extended reals.

  The kernel multiplies the neighbour sum by a stored reciprocal `1 / c`; the reference divides it by
  the count `c`.  For a nonzero real `c` the two agree on every extended real, so the first two
  layers need no finiteness.  In the last layer the kernel projects by `Wl` before it sums over the
  neighbours; exchanging the two sums and pulling the reciprocal through is an identity of real
  numbers, so there the features and the weight are assumed finite.
-/
import proofs.«177180_j43800076484795_2_alg».proof.Proof.Spec
import proofs.«177180_j43800076484795_2_alg».proof.Proof.LibFinite

noncomputable section

open scoped BigOperators

namespace Cert.Sage

open Idealize.ShloMosaic Idealize.ShloMosaic.ValueIdx

variable {N E D C : Nat}

/-- The reciprocal of a nonzero real, as the quotient of the ideal values computes it. -/
theorem div_one_coe {r : ℝ} (hr : r ≠ 0) : Ideal.div 1 (r : EReal) = ((1 / r : ℝ) : EReal) := by
  rw [Ideal.div_coe hr, one_mul]

/-- Scaling by the stored reciprocal of a nonzero real count is dividing by the count. -/
theorem preK_eq_preR (A : Mat N D) (ic : Mat N 1) (cm : Vc N) (h : Mat N D) (Wl Wr : Mat D C) (bRow : Mat 1 C) (b : Vc C)
    (hcm : ∀ n : Fin N, ∃ r : ℝ, cm (ix1 n) = (r : EReal) ∧ r ≠ 0)
    (hic : ∀ n : Fin N, ic (ix2 n (0 : Fin 1)) = Ideal.div 1 (cm (ix1 n)))
    (hb : ∀ j : Fin C, bRow (ix2 (0 : Fin 1) j) = b (ix1 j)) (n : Fin N) (j : Fin C) :
    preK A ic h Wl Wr bRow n j = preR A cm h Wl Wr b n j := by
  obtain ⟨r, hr, hr0⟩ := hcm n
  unfold preK preR
  rw [hic n, hb j, hr, div_one_coe hr0]
  simp only [Ideal.div_coe hr0]

theorem denseK_eq_denseR (A : Mat N D) (ic : Mat N 1) (cm : Vc N) (h : Mat N D) (Wl Wr : Mat D C) (bRow : Mat 1 C) (b : Vc C)
    (hcm : ∀ n : Fin N, ∃ r : ℝ, cm (ix1 n) = (r : EReal) ∧ r ≠ 0)
    (hic : ∀ n : Fin N, ic (ix2 n (0 : Fin 1)) = Ideal.div 1 (cm (ix1 n)))
    (hb : ∀ j : Fin C, bRow (ix2 (0 : Fin 1) j) = b (ix1 j)) :
    denseK A ic h Wl Wr bRow = denseR A cm h Wl Wr b := by
  funext i
  exact congrArg (fun x => max x 0) (preK_eq_preR A ic cm h Wl Wr bRow b hcm hic hb (i 0) (i 1))

/-- The neighbour sum of the projected features, scaled by `1 / r`, is the projection of the neighbour
    sum divided by `r`: `(∑ₑ ∑ₖ h (s e, k) · W (k, j)) · (1 / r) = ∑ₖ ((∑ₑ h (s e, k)) / r) · W (k, j)`,
    for finite `h`, `W` and a nonzero real `r`. -/
theorem sum_proj_scale (S : Finset (Fin E)) (s : Fin E → Fin N) (h : Mat N D) (W : Mat D C)
    (hh : LibFinite.AllReal h) (hW : LibFinite.AllReal W) {r : ℝ} (hr0 : r ≠ 0) (j : Fin C) :
    (∑ e ∈ S, projK h W (ix2 (s e) j)) * ((1 / r : ℝ) : EReal)
      = ∑ k : Fin D, Ideal.div (∑ e ∈ S, h (ix2 (s e) k)) (r : EReal) * W (ix2 k j) := by
  have hh' : ∀ i, ∃ x : ℝ, h i = (x : EReal) := hh
  have hW' : ∀ i, ∃ x : ℝ, W i = (x : EReal) := hW
  choose hr hhr using hh'
  choose wr hwr using hW'
  have hL : (∑ e ∈ S, projK h W (ix2 (s e) j)) * ((1 / r : ℝ) : EReal)
      = (((∑ e ∈ S, ∑ k : Fin D, hr (ix2 (s e) k) * wr (ix2 k j)) * (1 / r) : ℝ) : EReal) := by
    rw [EReal.coe_mul, LibFinite.coe_finset_sum]
    congr 1
    refine Finset.sum_congr rfl fun e _ => ?_
    rw [projK_apply, LibFinite.coe_finset_sum]
    refine Finset.sum_congr rfl fun k _ => ?_
    rw [hhr, hwr, EReal.coe_mul]
  have hR : (∑ k : Fin D, Ideal.div (∑ e ∈ S, h (ix2 (s e) k)) (r : EReal) * W (ix2 k j))
      = ((∑ k : Fin D, (∑ e ∈ S, hr (ix2 (s e) k)) / r * wr (ix2 k j) : ℝ) : EReal) := by
    rw [LibFinite.coe_finset_sum]
    refine Finset.sum_congr rfl fun k _ => ?_
    have hs : (∑ e ∈ S, h (ix2 (s e) k)) = ((∑ e ∈ S, hr (ix2 (s e) k) : ℝ) : EReal) := by
      rw [LibFinite.coe_finset_sum]
      exact Finset.sum_congr rfl fun e _ => hhr _
    rw [hs, LibFinite.div_coe_coe _ hr0, hwr, EReal.coe_mul]
  rw [hL, hR]
  congr 1
  rw [Finset.sum_comm, Finset.sum_mul]
  refine Finset.sum_congr rfl fun k _ => ?_
  rw [← Finset.sum_mul]
  ring

/-- The last layer: projecting before the neighbour sum and scaling by the reciprocal of the count is
    dividing the neighbour sum by the count and projecting after. -/
theorem pre3K_eq_preR (S : Fin N → Finset (Fin E)) (s : Fin E → Fin N)
    (A2 : Mat N C) (A : Mat N D) (ic : Mat N 1) (cm : Vc N) (h : Mat N D) (Wl Wr : Mat D C) (bRow : Mat 1 C) (b : Vc C)
    (hA2 : ∀ (n : Fin N) (j : Fin C), A2 (ix2 n j) = ∑ e ∈ S n, projK h Wl (ix2 (s e) j))
    (hA : ∀ (n : Fin N) (k : Fin D), A (ix2 n k) = ∑ e ∈ S n, h (ix2 (s e) k))
    (hh : LibFinite.AllReal h) (hWl : LibFinite.AllReal Wl)
    (hcm : ∀ n : Fin N, ∃ r : ℝ, cm (ix1 n) = (r : EReal) ∧ r ≠ 0)
    (hic : ∀ n : Fin N, ic (ix2 n (0 : Fin 1)) = Ideal.div 1 (cm (ix1 n)))
    (hb : ∀ j : Fin C, bRow (ix2 (0 : Fin 1) j) = b (ix1 j)) (n : Fin N) (j : Fin C) :
    pre3K A2 ic h Wr bRow n j = preR A cm h Wl Wr b n j := by
  obtain ⟨r, hr, hr0⟩ := hcm n
  unfold pre3K preR
  rw [hA2 n j, hic n, hb j, hr, div_one_coe hr0, sum_proj_scale (S n) s h Wl hh hWl hr0 j]
  simp only [hA n]

/-- A hidden layer of finite inputs is finite. -/
theorem allReal_denseK (A : Mat N D) (ic : Mat N 1) (h : Mat N D) (Wl Wr : Mat D C) (b : Mat 1 C)
    (hA : LibFinite.AllReal A) (hic : LibFinite.AllReal ic) (hh : LibFinite.AllReal h) (hWl : LibFinite.AllReal Wl)
    (hWr : LibFinite.AllReal Wr) (hb : LibFinite.AllReal b) :
    LibFinite.AllReal (denseK A ic h Wl Wr b) := by
  intro i
  show LibFinite.IsReal (max (preK A ic h Wl Wr b (i 0) (i 1)) 0)
  refine LibFinite.IsReal.max ?_ LibFinite.isReal_zero
  unfold preK
  refine LibFinite.IsReal.add (LibFinite.IsReal.add ?_ ?_) (hb _)
  · exact LibFinite.isReal_sum _ _ fun k _ => ((hA _).mul (hic _)).mul (hWl _)
  · exact LibFinite.isReal_sum _ _ fun k _ => (hh _).mul (hWr _)

/-- The output layers agree as soon as their arguments of the log-softmax agree pointwise. -/
theorem outK_eq_outR_of_pre (A2 : Mat N C) (ic : Mat N 1) (h : Mat N D) (Wr : Mat D C) (bRow : Mat 1 C)
    (A : Mat N D) (cm : Vc N) (Wl : Mat D C) (b : Vc C)
    (hpre : ∀ n j, pre3K A2 ic h Wr bRow n j = preR A cm h Wl Wr b n j) :
    outK A2 ic h Wr bRow = outR A cm h Wl Wr b := by
  have hfun : pre3K A2 ic h Wr bRow = preR A cm h Wl Wr b := funext₂ hpre
  funext i
  exact congrArg (fun f => lsm f (i 0) (i 1)) hfun

end Cert.Sage

end
-- ==== Proof.Bridge.lean ====
/-
  The two networks are one function of finite arguments.

  Both networks run three mean-aggregation layers over the same graph. In the first two layers the two sides differ
  only in how the neighbour sum is normalised — one multiplies by the stored reciprocal of the count, the other
  divides by the count — and in the bias being held as a one-row matrix or as a vector; the count is a nonzero real
  number, so these layers agree on every input, and the hidden activations of the two networks are the same arrays.
  Finite inputs give finite hidden activations. In the last layer one side applies the neighbour weight before the
  neighbour sum and the other after it; for finite activations and a finite weight the two orders give the same
  number, and the log-softmax of equal arguments is equal.
-/
import proofs.«177180_j43800076484795_2_alg».proof.Proof.Model
import proofs.«177180_j43800076484795_2_alg».proof.Proof.Algebra
import Idealize.ShloMosaic.Lib.ValueLayout

noncomputable section

open scoped BigOperators

namespace Cert.Sage

open Idealize.ShloMosaic Idealize.ShloMosaic.ValueIdx Cert.KernelIdeal Cert.KernelIdeal.Gen LibFinite

/-- The one-row matrix of a bias vector reads, at (0, j), the vector at j. -/
theorem row128_apply (b : FVec Ideal S128 .f32) (j : Fin 128) : row128 b (ix2 (0 : Fin 1) j) = b (ix1 j) :=
  shapeCast_a_1a_apply b shapeCasts_S128_S1x128 0 j

theorem row47_apply (b : FVec Ideal S47 .f32) (j : Fin 47) : row47 b (ix2 (0 : Fin 1) j) = b (ix1 j) :=
  shapeCast_a_1a_apply b shapeCasts_S47_S1x47 0 j

/-- Re-laying a finite vector as a row keeps it finite. -/
theorem allReal_row128 {b : FVec Ideal S128 .f32} (hb : AllReal b) : AllReal (row128 b) :=
  allReal_shapeCast hb _ _

theorem allReal_row47 {b : FVec Ideal S47 .f32} (hb : AllReal b) : AllReal (row47 b) :=
  allReal_shapeCast hb _ _

/-- A hidden layer is the same array on both sides, whatever it is applied to: the count is a nonzero real, so
    scaling by its reciprocal is dividing by it. -/
theorem hidK_eq_hidR (ei : EI) (h : FVec Ideal S50000x128 .f32) (Wl Wr : FVec Ideal S128x128 .f32) (b : FVec Ideal S128 .f32) :
    hidK ei h Wl Wr b = hidR ei h Wl Wr b :=
  denseK_eq_denseR (N := 50000) (D := 128) (C := 128) (agg128 ei h) (icCol ei) (cntMax ei) h Wl Wr (row128 b) b
    (cntMax_real ei) (icCol_apply ei) (row128_apply b)

/-- A hidden layer of finite activations, weights and bias is finite. -/
theorem allReal_hidK (ei : EI) {h : FVec Ideal S50000x128 .f32} {Wl Wr : FVec Ideal S128x128 .f32} {b : FVec Ideal S128 .f32}
    (hh : AllReal h) (hWl : AllReal Wl) (hWr : AllReal Wr) (hb : AllReal b) : AllReal (hidK ei h Wl Wr b) :=
  allReal_denseK (N := 50000) (D := 128) (C := 128) (agg128 ei h) (icCol ei) h Wl Wr (row128 b)
    (allReal_agg128 ei hh) (allReal_icCol ei) hh hWl hWr (allReal_row128 hb)

/-- The two networks agree on finite arguments. -/
theorem modelK_eq_modelR (x : FVec Ideal S50000x128 .f32) (ei : EI) (Wl0 Wr0 : FVec Ideal S128x128 .f32) (b0 : FVec Ideal S128 .f32)
    (Wl1 Wr1 : FVec Ideal S128x128 .f32) (b1 : FVec Ideal S128 .f32) (Wl2 Wr2 : FVec Ideal S128x47 .f32) (b2 : FVec Ideal S47 .f32)
    (hx : AllReal x) (hWl0 : AllReal Wl0) (hWr0 : AllReal Wr0) (hb0 : AllReal b0) (hWl1 : AllReal Wl1) (hWr1 : AllReal Wr1) (hb1 : AllReal b1)
    (hWl2 : AllReal Wl2) (hWr2 : AllReal Wr2) (hb2 : AllReal b2) :
    modelK x ei Wl0 Wr0 b0 Wl1 Wr1 b1 Wl2 Wr2 b2 = modelR x ei Wl0 Wr0 b0 Wl1 Wr1 b1 Wl2 Wr2 b2 := by
  have e0 : hidR ei x Wl0 Wr0 b0 = hidK ei x Wl0 Wr0 b0 := (hidK_eq_hidR ei x Wl0 Wr0 b0).symm
  have e1 : hidR ei (hidR ei x Wl0 Wr0 b0) Wl1 Wr1 b1 = hidK ei (hidK ei x Wl0 Wr0 b0) Wl1 Wr1 b1 := by
    rw [e0]; exact (hidK_eq_hidR ei _ Wl1 Wr1 b1).symm
  have hh1 : AllReal (hidK ei (hidK ei x Wl0 Wr0 b0) Wl1 Wr1 b1) :=
    allReal_hidK ei (allReal_hidK ei hx hWl0 hWr0 hb0) hWl1 hWr1 hb1
  unfold modelK modelR
  rw [e1]
  generalize hidK ei (hidK ei x Wl0 Wr0 b0) Wl1 Wr1 b1 = h1 at hh1 ⊢
  exact outK_eq_outR_of_pre (N := 50000) (D := 128) (C := 47) (agg47 ei (projK (N := 50000) (D := 128) (C := 47) h1 Wl2))
    (icCol ei) h1 Wr2 (row47 b2) (agg128 ei h1) (cntMax ei) Wl2 b2
    (pre3K_eq_preR (N := 50000) (E := 800000) (D := 128) (C := 47) (hit ei) (srcRow ei) _ (agg128 ei h1) (icCol ei) (cntMax ei) h1 Wl2 Wr2
      (row47 b2) b2 (agg47_apply ei (projK (N := 50000) (D := 128) (C := 47) h1 Wl2)) (agg128_apply ei h1) hh1 hWl2
      (cntMax_real ei) (icCol_apply ei) (row47_apply b2))

end Cert.Sage

end
-- ==== Proof.RefOps.lean ====
/-
  The reference's operations cut into its three layers, and the fold of the operations over a concatenation.
  The first piece ends at the first hidden layer's output, the second at the second hidden layer's output, the third
  is the output layer with its row-wise log-softmax.
-/
import proofs.«177180_j43800076484795_2_alg».proof.Proof.ReferenceIdealRunP

noncomputable section

namespace Cert.Sage

open Cert.ReferenceIdeal Cert.ReferenceIdeal.Gen Idealize.ShloMosaic Idealize.ShloMosaic.TcCoe Idealize.SL.Sem Idealize.ShloMosaic.StableHlo

/-- The fold of the operations over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- The operations of the first hidden layer (and of the edge list's two rows). -/
def opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_v24 main_v25 (addf : (⟨S50000x128, .f32⟩ : BufTy).Contents (Elt F) → (⟨S50000x128, .f32⟩ : BufTy).Contents (Elt F) → (⟨S50000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v28) (TRef.of (T := ⟨S50000x128, .f32⟩) main_call0_v0) (TRef.of (T := ⟨S50000x128, .f32⟩) main_v29) maximumf ]

/-- The operations of the second hidden layer. -/
def opsB : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v40 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v50 main_v51 (addf : (⟨S50000x128, .f32⟩ : BufTy).Contents (Elt F) → (⟨S50000x128, .f32⟩ : BufTy).Contents (Elt F) → (⟨S50000x128, .f32⟩ : BufTy).Contents (Elt F)),
    unary main_arg7 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v54) (TRef.of (T := ⟨S50000x128, .f32⟩) main_call1_v0) (TRef.of (T := ⟨S50000x128, .f32⟩) main_v55) maximumf ]

/-- The operations of the output layer. -/
def opsC : List (HloOp τ sig (Elt F)) :=
  [ nullary main_c_10 (constantI S_ 32 0#32),
    unary main_c_10 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v63 (broadcastInDim S50000x128 ![] bcast_S_S50000x128 : (⟨S_, .f32⟩ : BufTy).Contents (Elt F) → (⟨S50000x128, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v66 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v67 (broadcastInDim S50000 ![] bcast_S_S50000 : (⟨S_, .f32⟩ : BufTy).Contents (Elt F) → (⟨S50000, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v70 (broadcastInDim S50000 ![] bcast_S_S50000 : (⟨S_, .f32⟩ : BufTy).Contents (Elt F) → (⟨S50000, .f32⟩ : BufTy).Contents (Elt F)),
    binary main_v69 main_v70 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v65 main_v73 main_v74 (Host.divf : (⟨S50000x128, .f32⟩ : BufTy).Contents (Elt F) → (⟨S50000x128, .f32⟩ : BufTy).Contents (Elt F) → (⟨S50000x128, .f32⟩ : BufTy).Contents (Elt F)),
    binary main_v74 main_arg8 main_v75 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v55 main_arg9 main_v76 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v75 main_v76 main_v77 (addf : (⟨S50000x47, .f32⟩ : BufTy).Contents (Elt F) → (⟨S50000x47, .f32⟩ : BufTy).Contents (Elt F) → (⟨S50000x47, .f32⟩ : BufTy).Contents (Elt F)),
    unary main_arg10 main_v78 (broadcastInDim S1x47 ![1] bcast_S47_S1x47_1 : (⟨S47, .f32⟩ : BufTy).Contents (Elt F) → (⟨S1x47, .f32⟩ : BufTy).Contents (Elt F)),
    unary main_v78 main_v79 (broadcastInDim S50000x47 ![0, 1] bcast_S1x47_S50000x47_0_1 : (⟨S1x47, .f32⟩ : BufTy).Contents (Elt F) → (⟨S50000x47, .f32⟩ : BufTy).Contents (Elt F)),
    binary main_v77 main_v79 main_v80 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call2_cst) (constant S_ .f32 0xFF800000#32),
    TRef.binary (TRef.of (T := ⟨S50000x47, .f32⟩) main_v80) (TRef.of (T := ⟨S_, .f32⟩) main_call2_cst) (TRef.of (T := ⟨S50000, .f32⟩) main_call2_v0) (fun x v => Host.reduce FloatOps.maximumf x v reducesTo_S50000x47_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x47, .f32⟩) main_call2_v4) (broadcastInDim S50000x47 ![0, 1] bcast_S50000x1_S50000x47_0_1),
    TRef.binary (TRef.of (T := ⟨S50000x47, .f32⟩) main_v80) (TRef.of (T := ⟨S50000x47, .f32⟩) main_call2_v4) (TRef.of (T := ⟨S50000x47, .f32⟩) main_call2_v5) subf,
    TRef.unary (TRef.of (T := ⟨S50000x47, .f32⟩) main_call2_v5) (TRef.of (T := ⟨S50000x47, .f32⟩) main_call2_v6) Host.exp,
    TRef.nullary (TRef.of (T := ⟨S_, .f32⟩) main_call2_cst_1) (constant S_ .f32 0x00000000#32),
    TRef.binary (TRef.of (T := ⟨S50000x47, .f32⟩) main_call2_v6) (TRef.of (T := ⟨S_, .f32⟩) main_call2_cst_1) (TRef.of (T := ⟨S50000, .f32⟩) main_call2_v7) (fun x v => Host.reduceAdd x v reducesTo_S50000x47_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x47, .f32⟩) main_call2_v10) (broadcastInDim S50000x47 ![0, 1] bcast_S50000x1_S50000x47_0_1),
    TRef.binary (TRef.of (T := ⟨S50000x47, .f32⟩) main_call2_v5) (TRef.of (T := ⟨S50000x47, .f32⟩) main_call2_v10) (TRef.of (T := ⟨S50000x47, .f32⟩) main_v81) subf ]

set_option maxRecDepth 8192 in
/-- The reference's operations are the three pieces in order. -/
theorem ops_eq : (Cert.ReferenceIdeal.Value.ops : List (HloOp τ sig (Elt F))) = opsA ++ (opsB ++ opsC) := rfl

end Cert.Sage

end
-- ==== Proof.RefLayers.lean ====
/-
  The reference's three layers as functions of arrays, and each piece of its operations read as such a function.

  `srcVecOf` / `dstVecOf` are the two rows of the edge list.  Given the two rows, `aggOf` gathers the rows of a
  feature matrix at the sources and adds them up at the destinations, `cntOf` counts the edges per destination and
  raises the count to at least one, `divOf` divides the sums by the counts.  A layer adds the product of the
  quotient with one weight, the product of the features with the other weight, and the bias spread over the rows.
  A hidden layer then clips at zero (`reluOp`); the output layer takes the row-wise log-softmax (`lsmOp`).
-/
import proofs.«177180_j43800076484795_2_alg».proof.Proof.RefOps
import Idealize.ShloMosaic.PureOps.Ideal

set_option Elab.async false

noncomputable section

namespace Cert.Sage

open Cert.ReferenceIdeal Cert.ReferenceIdeal.Gen Idealize.ShloMosaic Idealize.ShloMosaic.TcCoe Idealize.SL.Sem Idealize.ShloMosaic.StableHlo

/-- Contents of all the reference's buffers, over the extended reals. -/
abbrev RVal := Valuation τ sig (Elt Ideal)

/-! ## The layers as functions of arrays -/

/-- The first row of the edge list: the source row numbers as stored. -/
def srcVecOf (ei : IVec S2x800000 32) : IVec S800000 32 :=
  shapeCast S800000 (extractStridedSlice S1x800000 ![0, 0] ei slices_S2x800000_S1x800000_0_0) shapeCasts_S1x800000_S800000

/-- The second row of the edge list: the destination row numbers. -/
def dstVecOf (ei : IVec S2x800000 32) : IVec S800000 32 :=
  shapeCast S800000 (extractStridedSlice S1x800000 ![1, 0] ei slices_S2x800000_S1x800000_1_0) shapeCasts_S1x800000_S800000

/-- The column of source row numbers, a negative one shifted up by the number of nodes. -/
def srcColOf (sv : IVec S800000 32) : IVec S800000x1 32 :=
  broadcastInDim S800000x1 ![0] bcast_S800000_S800000x1_0
    (select (cmpi .slt sv (broadcastInDim S800000 ![] bcast_S_S800000 (constantI S_ 32 0#32)))
      (addi sv (broadcastInDim S800000 ![] bcast_S_S800000 (constantI S_ 32 50000#32))) sv)

/-- The column of destination row numbers. -/
def dstColOf (dv : IVec S800000 32) : IVec S800000x1 32 :=
  broadcastInDim S800000x1 ![0] bcast_S800000_S800000x1_0 dv

/-- The neighbour sums of a 128-wide feature matrix. -/
def aggOf (sv dv : IVec S800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (dstColOf dv)
    (Host.gather gather_S50000x128_S800000x1_S800000x128_1_0_n_n_0_1_1128 h (srcColOf sv))

/-- The number of incoming edges per node, raised to at least one. -/
def cntOf (dv : IVec S800000 32) : FVec Ideal S50000 .f32 :=
  maximumf
    (Host.scatterAdd scatter_S50000_S800000x1_S800000_n_0_0_1
      (broadcastInDim S50000 ![] bcast_S_S50000 (constant S_ .f32 0x00000000#32)) (dstColOf dv)
      (broadcastInDim S800000 ![] bcast_S_S800000 (constant S_ .f32 0x3F800000#32)))
    (broadcastInDim S50000 ![] bcast_S_S50000 (constant S_ .f32 0x3F800000#32))

/-- The neighbour sums divided by the counts: the neighbour means. -/
def divOf (sv dv : IVec S800000 32) (h : FVec Ideal S50000x128 .f32) : FVec Ideal S50000x128 .f32 :=
  Host.divf (aggOf sv dv h)
    (broadcastInDim S50000x128 ![0, 1] bcast_S50000x1_S50000x128_0_1
      (broadcastInDim S50000x1 ![0] bcast_S50000_S50000x1_0 (cntOf dv)))

/-- A hidden layer before it is clipped. -/
def layer128 (sv dv : IVec S800000 32) (h : FVec Ideal S50000x128 .f32) (Wl Wr : FVec Ideal S128x128 .f32)
    (b : FVec Ideal S128 .f32) : FVec Ideal S50000x128 .f32 :=
  addf
    (addf (Host.dotGeneral dot_S50000x128_S128x128_S50000x128_1_0_0_1_n_n none (divOf sv dv h) Wl)
      (Host.dotGeneral dot_S50000x128_S128x128_S50000x128_1_0_0_1_n_n none h Wr))
    (broadcastInDim S50000x128 ![0, 1] bcast_S1x128_S50000x128_0_1 (broadcastInDim S1x128 ![1] bcast_S128_S1x128_1 b))

/-- Clipping below at zero. -/
def reluOp (z : FVec Ideal S50000x128 .f32) : FVec Ideal S50000x128 .f32 :=
  maximumf z (broadcastInDim S50000x128 ![] bcast_S_S50000x128 (constant S_ .f32 0x00000000#32))

/-- The output layer before its log-softmax. -/
def layer47 (sv dv : IVec S800000 32) (h : FVec Ideal S50000x128 .f32) (Wl Wr : FVec Ideal S128x47 .f32)
    (b : FVec Ideal S47 .f32) : FVec Ideal S50000x47 .f32 :=
  addf
    (addf (Host.dotGeneral dot_S50000x128_S128x47_S50000x47_1_0_0_1_n_n none (divOf sv dv h) Wl)
      (Host.dotGeneral dot_S50000x128_S128x47_S50000x47_1_0_0_1_n_n none h Wr))
    (broadcastInDim S50000x47 ![0, 1] bcast_S1x47_S50000x47_0_1 (broadcastInDim S1x47 ![1] bcast_S47_S1x47_1 b))

/-- The row maxima: the larger of minus infinity and the maximum of the row, folded from minus infinity. -/
def rowMaxOp (z : FVec Ideal S50000x47 .f32) : FVec Ideal S50000 .f32 :=
  maximumf (broadcastInDim S50000 ![] bcast_S_S50000 (constant S_ .f32 0xFF800000#32))
    (Host.reduce FloatOps.maximumf z (constant (F := Ideal) S_ .f32 0xFF800000#32) reducesTo_S50000x47_S50000_d1 h_S_)

/-- Each entry less the maximum of its row. -/
def shiftOp (z : FVec Ideal S50000x47 .f32) : FVec Ideal S50000x47 .f32 :=
  subf z (broadcastInDim S50000x47 ![0, 1] bcast_S50000x1_S50000x47_0_1
    (broadcastInDim S50000x1 ![0] bcast_S50000_S50000x1_0 (rowMaxOp z)))

/-- The row-wise log-softmax. -/
def lsmOp (z : FVec Ideal S50000x47 .f32) : FVec Ideal S50000x47 .f32 :=
  subf (shiftOp z) (broadcastInDim S50000x47 ![0, 1] bcast_S50000x1_S50000x47_0_1
    (Host.log (broadcastInDim S50000x1 ![0] bcast_S50000_S50000x1_0
      (Host.reduceAdd (Host.exp (shiftOp z)) (constant (F := Ideal) S_ .f32 0x00000000#32) reducesTo_S50000x47_S50000_d1 h_S_))))

/-! ## The first piece -/

set_option maxRecDepth 8192 in
set_option maxHeartbeats 4000000 in
theorem afterA_v1 (V : RVal) : after opsA V (Proc.devRef .tc main_v1) = srcVecOf (V (Proc.devRef .tc main_arg1)) := by
  unfold opsA; after_results_simp <;> rfl

set_option maxRecDepth 8192 in
set_option maxHeartbeats 4000000 in
theorem afterA_v3 (V : RVal) : after opsA V (Proc.devRef .tc main_v3) = dstVecOf (V (Proc.devRef .tc main_arg1)) := by
  unfold opsA; after_results_simp <;> rfl

set_option maxRecDepth 8192 in
set_option maxHeartbeats 2000000 in
theorem afterA_v29 (V : RVal) : after opsA V (Proc.devRef .tc main_v29)
    = reluOp (layer128 (srcVecOf (V (Proc.devRef .tc main_arg1))) (dstVecOf (V (Proc.devRef .tc main_arg1))) (V (Proc.devRef .tc main_arg0)) (V (Proc.devRef .tc main_arg2)) (V (Proc.devRef .tc main_arg3)) (V (Proc.devRef .tc main_arg4))) := by
  unfold opsA; after_results_simp
  simp only [TRef.toBuf, TRef.ofBuf]
  repeat rw [cast_eq]
  unfold reluOp layer128 divOf aggOf cntOf dstColOf srcColOf srcVecOf dstVecOf
  rfl

set_option maxRecDepth 8192 in
set_option maxHeartbeats 4000000 in
theorem afterA_arg5 (V : RVal) : after opsA V (Proc.devRef .tc main_arg5) = V (Proc.devRef .tc main_arg5) := by
  unfold opsA; after_results_simp <;> rfl

set_option maxRecDepth 8192 in
set_option maxHeartbeats 4000000 in
theorem afterA_arg6 (V : RVal) : after opsA V (Proc.devRef .tc main_arg6) = V (Proc.devRef .tc main_arg6) := by
  unfold opsA; after_results_simp <;> rfl

set_option maxRecDepth 8192 in
set_option maxHeartbeats 4000000 in
theorem afterA_arg7 (V : RVal) : after opsA V (Proc.devRef .tc main_arg7) = V (Proc.devRef .tc main_arg7) := by
  unfold opsA; after_results_simp <;> rfl

set_option maxRecDepth 8192 in
set_option maxHeartbeats 4000000 in
theorem afterA_arg8 (V : RVal) : after opsA V (Proc.devRef .tc main_arg8) = V (Proc.devRef .tc main_arg8) := by
  unfold opsA; after_results_simp <;> rfl

set_option maxRecDepth 8192 in
set_option maxHeartbeats 4000000 in
theorem afterA_arg9 (V : RVal) : after opsA V (Proc.devRef .tc main_arg9) = V (Proc.devRef .tc main_arg9) := by
  unfold opsA; after_results_simp <;> rfl

set_option maxRecDepth 8192 in
set_option maxHeartbeats 4000000 in
theorem afterA_arg10 (V : RVal) : after opsA V (Proc.devRef .tc main_arg10) = V (Proc.devRef .tc main_arg10) := by
  unfold opsA; after_results_simp <;> rfl

/-! ## The second piece -/

set_option maxRecDepth 8192 in
set_option maxHeartbeats 2000000 in
theorem afterB_v55 (V : RVal) : after opsB V (Proc.devRef .tc main_v55)
    = reluOp (layer128 (V (Proc.devRef .tc main_v1)) (V (Proc.devRef .tc main_v3)) (V (Proc.devRef .tc main_v29)) (V (Proc.devRef .tc main_arg5)) (V (Proc.devRef .tc main_arg6)) (V (Proc.devRef .tc main_arg7))) := by
  unfold opsB; after_results_simp
  simp only [TRef.toBuf, TRef.ofBuf]
  repeat rw [cast_eq]
  unfold reluOp layer128 divOf aggOf cntOf dstColOf srcColOf
  rfl

set_option maxRecDepth 8192 in
set_option maxHeartbeats 4000000 in
theorem afterB_v1 (V : RVal) : after opsB V (Proc.devRef .tc main_v1) = V (Proc.devRef .tc main_v1) := by
  unfold opsB; after_results_simp <;> rfl

set_option maxRecDepth 8192 in
set_option maxHeartbeats 4000000 in
theorem afterB_v3 (V : RVal) : after opsB V (Proc.devRef .tc main_v3) = V (Proc.devRef .tc main_v3) := by
  unfold opsB; after_results_simp <;> rfl

set_option maxRecDepth 8192 in
set_option maxHeartbeats 4000000 in
theorem afterB_arg8 (V : RVal) : after opsB V (Proc.devRef .tc main_arg8) = V (Proc.devRef .tc main_arg8) := by
  unfold opsB; after_results_simp <;> rfl

set_option maxRecDepth 8192 in
set_option maxHeartbeats 4000000 in
theorem afterB_arg9 (V : RVal) : after opsB V (Proc.devRef .tc main_arg9) = V (Proc.devRef .tc main_arg9) := by
  unfold opsB; after_results_simp <;> rfl

set_option maxRecDepth 8192 in
set_option maxHeartbeats 4000000 in
theorem afterB_arg10 (V : RVal) : after opsB V (Proc.devRef .tc main_arg10) = V (Proc.devRef .tc main_arg10) := by
  unfold opsB; after_results_simp <;> rfl

/-! ## The third piece -/

set_option maxRecDepth 8192 in
set_option maxHeartbeats 2000000 in
theorem afterC_v81 (V : RVal) : after opsC V (Proc.devRef .tc main_v81)
    = lsmOp (layer47 (V (Proc.devRef .tc main_v1)) (V (Proc.devRef .tc main_v3)) (V (Proc.devRef .tc main_v55)) (V (Proc.devRef .tc main_arg8)) (V (Proc.devRef .tc main_arg9)) (V (Proc.devRef .tc main_arg10))) := by
  unfold opsC; after_results_simp
  simp only [TRef.toBuf, TRef.ofBuf]
  repeat rw [cast_eq]
  unfold lsmOp shiftOp rowMaxOp layer47 divOf aggOf cntOf dstColOf srcColOf
  rfl

end Cert.Sage

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«177180_j43800076484795_2_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.LibSpmm.lean ====
/-
  The product of a sparse matrix with a dense one, as a gather, a scaling and a scatter-add of rows.

  The sparse matrix is a list of `E` entries: entry `e` has a row number `row e`, a column number `col e` and a
  value `val e`. Its product with a dense `[N, C]` matrix `y` is computed in three steps: row `e` of the gathered
  matrix is the row of `y` numbered `col e` (read signed and clamped into `[0, N - 1]`); that row is scaled by
  `val e`; and the scaled rows are added into a zero `[N, C]` matrix at their row numbers (an entry whose row number,
  read signed, is outside `[0, N)` is dropped). Read at `(n, d)` the result is

      ∑ over the entries e whose row number is n, of  val e * y (source row of e, d).

  The product keeps finite matrices finite, whatever the row and column numbers are.
-/
import proofs.«177180_j43800076484795_2_alg».proof.Proof.LibRowIndex
import proofs.«177180_j43800076484795_2_alg».proof.Proof.LibFiniteOps
import Idealize.ShloMosaic.Lib.Pipeline.Value
import Idealize.ShloMosaic.Lib.ValueIdx
import Idealize.ShloMosaic.PureOps.Ideal.Laws

noncomputable section

open scoped BigOperators

namespace Cert.SparseProd

open Idealize.ShloMosaic Idealize.ShloMosaic.ValueIdx Cert.GNN.RowIndex LibFinite

section
variable {N E C : Nat}
  (hE1 : (⟨1, ![E]⟩ : Shape).BroadcastsInDim ⟨2, ![E, 1]⟩ (![0] : Fin 1 → Fin 2))
  (hEC : (⟨2, ![E, 1]⟩ : Shape).BroadcastsInDim ⟨2, ![E, C]⟩ (![0, 1] : Fin 2 → Fin 2))
  (hNC : (⟨0, ![]⟩ : Shape).BroadcastsInDim ⟨2, ![N, C]⟩ (![] : Fin 0 → Fin 2))
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- The sparse product as the host computes it: gather the rows of `y` numbered by `col`, scale row `e` by
    `val e`, scatter-add the scaled rows into the zero matrix at the row numbers `row`. -/
def spmm (row col : IVec ⟨1, ![E]⟩ 32) (val : FVec Ideal ⟨1, ![E]⟩ .f32) (y : FVec Ideal ⟨2, ![N, C]⟩ .f32) :
    FVec Ideal ⟨2, ![N, C]⟩ .f32 :=
  Host.scatterAdd (rowScatterDims N E C wfS)
    (broadcastInDim ⟨2, ![N, C]⟩ ![] hNC (constant (F := Ideal) ⟨0, ![]⟩ .f32 0x00000000#32))
    (broadcastInDim ⟨2, ![E, 1]⟩ ![0] hE1 row)
    (mulf (broadcastInDim ⟨2, ![E, C]⟩ ![0, 1] hEC (broadcastInDim ⟨2, ![E, 1]⟩ ![0] hE1 val))
      (Host.gather (rowGatherDims N E C wfG) y (broadcastInDim ⟨2, ![E, 1]⟩ ![0] hE1 col)))

/-- The row of the dense matrix that entry `e` reads: its column number, read signed and clamped into `[0, N - 1]`. -/
def srcRow (hN : 0 < N) (col : IVec ⟨1, ![E]⟩ 32) (e : Fin E) : Fin N :=
  ⟨min (col (ix1 e)).toInt.toNat (N - 1), by omega⟩

/-- A vector laid as a one-column matrix reads, at `(e, u)`, the vector at `e`. -/
theorem column_apply {α : Type} (x : (⟨1, ![E]⟩ : Shape).Idx → α) (e : Fin E) (u : Fin 1) :
    broadcastInDim ⟨2, ![E, 1]⟩ ![0] hE1 x (ix2 e u) = x (ix1 e) :=
  broadcastInDim_apply _ hE1 x (ix2 e u) (ix1 e) (fun a => match a with
    | ⟨0, _⟩ => by
      show e.val = if E = 1 then 0 else e.val
      split
      · have := e.isLt; omega
      · rfl)

/-- A one-column matrix repeated along the rows reads, at `(e, d)`, the column at `e`. -/
theorem repeat_apply {α : Type} (x : (⟨2, ![E, 1]⟩ : Shape).Idx → α) (e : Fin E) (d : Fin C) :
    broadcastInDim ⟨2, ![E, C]⟩ ![0, 1] hEC x (ix2 e d) = x (ix2 e (0 : Fin 1)) :=
  broadcastInDim_apply _ hEC x (ix2 e d) (ix2 e (0 : Fin 1)) (fun a => match a with
    | ⟨0, _⟩ => by
      show e.val = if E = 1 then 0 else e.val
      split
      · have := e.isLt; omega
      · rfl
    | ⟨1, _⟩ => by
      show 0 = if (1 : Nat) = 1 then 0 else d.val
      rw [if_pos rfl])

/-- THE SPARSE PRODUCT READ AT `(n, d)`: the sum, over the entries whose row number (read signed) is `n`, of the
    entry's value times the dense matrix at the entry's source row, column `d`. -/
theorem spmm_apply (hN : 0 < N) (row col : IVec ⟨1, ![E]⟩ 32) (val : FVec Ideal ⟨1, ![E]⟩ .f32)
    (y : FVec Ideal ⟨2, ![N, C]⟩ .f32) (n : Fin N) (d : Fin C) :
    spmm hE1 hEC hNC wfG wfS row col val y (ix2 n d)
      = ∑ e ∈ Finset.univ.filter (fun e : Fin E => (row (ix1 e)).toInt = (n.val : Int)),
          val (ix1 e) * y (ix2 (srcRow hN col e) d) := by
  unfold spmm
  rw [host_scatterAdd_row_apply]
  have hz : broadcastInDim ⟨2, ![N, C]⟩ ![] hNC (constant (F := Ideal) ⟨0, ![]⟩ .f32 0x00000000#32) (ix2 n d) = 0 := by
    rw [broadcastInDim_apply _ hNC _ _ ix0 (fun a => a.elim0)]
    exact Ideal.ofBits_zero_f32
  rw [hz, zero_add]
  refine Finset.sum_congr (Finset.filter_congr (fun e _ => by rw [column_apply hE1])) (fun e _ => ?_)
  show (broadcastInDim ⟨2, ![E, C]⟩ ![0, 1] hEC (broadcastInDim ⟨2, ![E, 1]⟩ ![0] hE1 val) (ix2 e d))
      * (Host.gather (rowGatherDims N E C wfG) y (broadcastInDim ⟨2, ![E, 1]⟩ ![0] hE1 col) (ix2 e d)) = _
  rw [repeat_apply hEC, column_apply hE1, gather_row_apply hN wfG]
  have hc := column_apply hE1 col e (0 : Fin 1)
  refine congrArg (fun r => val (ix1 e) * y (ix2 r d)) (Fin.ext ?_)
  show min (broadcastInDim ⟨2, ![E, 1]⟩ ![0] hE1 col (ix2 e (0 : Fin 1))).toInt.toNat (N - 1)
    = min (col (ix1 e)).toInt.toNat (N - 1)
  rw [hc]

/-- The sparse product of a finite matrix by finite values is finite. -/
theorem allReal_spmm (row col : IVec ⟨1, ![E]⟩ 32) {val : FVec Ideal ⟨1, ![E]⟩ .f32} (hval : AllReal val)
    {y : FVec Ideal ⟨2, ![N, C]⟩ .f32} (hy : AllReal y) : AllReal (spmm hE1 hEC hNC wfG wfS row col val y) :=
  allReal_scatterAdd _ (allReal_broadcastInDim (allReal_constant_zero_f32 _) _ _ _) _
    (allReal_mulf (allReal_broadcastInDim (allReal_broadcastInDim hval _ _ _) _ _ _) (allReal_gather _ hy _))

end

end Cert.SparseProd

end
-- ==== Proof.RefValue.lean ====
/-
  The reference's value: its operations, folded over the launch contents, compute the network `modelR` of the
  eleven arguments.

  Each layer function of arrays is read at an index `(n, j)`: a host product is the sum over the shared axis, the
  quotient by the spread counts divides by the count of node `n`, the spread bias is the bias at `j`.  That is
  the layer of the specification at `(n, j)`.  A hidden layer is then the larger of that and zero; the output
  layer subtracts the row maximum (a fold of `max` from minus infinity, which the extra `max` with minus
  infinity does not change), exponentiates, sums the row from zero, takes the logarithm and subtracts it.
-/
import proofs.«177180_j43800076484795_2_alg».proof.Proof.RefLayers
import proofs.«177180_j43800076484795_2_alg».proof.Proof.Model
import proofs.«177180_j43800076484795_2_alg».proof.Proof.LibHostDot
import proofs.«177180_j43800076484795_2_alg».proof.Proof.LibRowMax
import proofs.«177180_j43800076484795_2_alg».proof.Proof.LibSpmm
import Idealize.ShloMosaic.Lib.Pipeline.Value
import Idealize.ShloMosaic.Lib.IdealHost
import Idealize.ShloMosaic.PureOps.Ideal.Laws

set_option Elab.async false

noncomputable section

open scoped BigOperators

namespace Cert.Sage

open Cert.ReferenceIdeal Cert.ReferenceIdeal.Gen Idealize.ShloMosaic Idealize.ShloMosaic.ValueIdx Idealize.SL.Sem Idealize.ShloMosaic.StableHlo

/-! ## Broadcasts and the host's row sum, read at an index -/

section General
variable {α : Type}

/-- A vector laid as a column and repeated along the rows reads, at `(n, c)`, the vector at `n`. -/
theorem colSpread_apply {N C : Nat}
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (x : (⟨1, ![N]⟩ : Shape).Idx → α) (n : Fin N) (c : Fin C) :
    broadcastInDim ⟨2, ![N, C]⟩ ![0, 1] h2 (broadcastInDim ⟨2, ![N, 1]⟩ ![0] h1 x) (ix2 n c) = x (ix1 n) :=
  (Cert.SparseProd.repeat_apply h2 _ n c).trans (Cert.SparseProd.column_apply h1 x n (0 : Fin 1))

/-- A vector laid as a row and repeated along the columns reads, at `(n, j)`, the vector at `j`. -/
theorem rowSpread_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : (⟨1, ![C]⟩ : Shape).Idx → α) (n : Fin N) (j : Fin C) :
    broadcastInDim ⟨2, ![N, C]⟩ ![0, 1] h2 (broadcastInDim ⟨2, ![1, C]⟩ ![1] h1 x) (ix2 n j) = x (ix1 j) := by
  rw [broadcastInDim_apply _ h2 _ (ix2 n j) (ix2 (0 : Fin 1) j) (fun a => match a with
    | ⟨0, _⟩ => by
      show 0 = if (1 : Nat) = 1 then 0 else n.val
      rw [if_pos rfl]
    | ⟨1, _⟩ => by
      show j.val = if C = 1 then 0 else j.val
      split
      · have := j.isLt; omega
      · rfl)]
  exact broadcastInDim_apply _ h1 x (ix2 (0 : Fin 1) j) (ix1 j) (fun a => match a with
    | ⟨0, _⟩ => by
      show j.val = if C = 1 then 0 else j.val
      split
      · have := j.isLt; omega
      · rfl)

/-- Two arrays over `[n0, n1]` that agree at every `(a, b)` are equal. -/
theorem ext_ix2 {n0 n1 : Nat} {f g : (⟨2, ![n0, n1]⟩ : Shape).Idx → α}
    (h : ∀ (a : Fin n0) (b : Fin n1), f (ix2 a b) = g (ix2 a b)) : f = g :=
  funext fun i => (congrArg f (ValueIdx.eq_ix2 i)).trans ((h (i 0) (i 1)).trans (congrArg g (ValueIdx.eq_ix2 i)).symm)

end General

/-- The host's sum of an `[a, b]` array over its second axis is, at row `p`, the initial value plus the sum of the
    `b` entries of that row. -/
theorem hostReduceAdd_row {a b : Nat} {u : Shape} (x : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (p : Fin a) :
    Host.reduceAdd x init h' hu (ix1 p) = init (Shape.Idx.first hu) + ∑ k : Fin b, x (ix2 p k) :=
  (Ideal.hostReduceAdd_single h' h x (init (Shape.Idx.first hu)) (ix1 p)).trans
    (congrArg (fun s => init (Shape.Idx.first hu) + s)
      (Finset.sum_congr rfl fun k _ => congrArg x (Cert.LibRowMax.lift_row h p k)))

/-! ## The shared host operations are the same functions in both programs -/

theorem aggOf_eq (ei : EI) (h : FVec Ideal S50000x128 .f32) : aggOf (srcVecOf ei) (dstVecOf ei) h = agg128 ei h := rfl

theorem cntOf_eq (ei : EI) : cntOf (dstVecOf ei) = cntMax ei := rfl

/-! ## Single operations at an index -/

theorem constant_apply {s : Shape} {φ : FTy} (b : BitVec φ.bits) (i : s.Idx) :
    (constant s φ b : FVec Ideal s φ) i = Ideal.ofBits φ b := rfl

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

/-- The host product by a 128 × 128 weight at `(n, j)`. -/
theorem hostDot128_apply (l : FVec Ideal S50000x128 .f32) (r : FVec Ideal S128x128 .f32) (n : Fin 50000) (j : Fin 128) :
    Host.dotGeneral dot_S50000x128_S128x128_S50000x128_1_0_0_1_n_n none l r (ix2 n j) = ∑ c : Fin 128, l (ix2 n c) * r (ix2 c j) :=
  Cert.LibHostDot.dotGeneral_plain (m := 50000) (k := 128) (n := 128) dot_S50000x128_S128x128_S50000x128_1_0_0_1_n_n_wf .single l r n j

/-- The host product by a 128 × 47 weight at `(n, j)`. -/
theorem hostDot47_apply (l : FVec Ideal S50000x128 .f32) (r : FVec Ideal S128x47 .f32) (n : Fin 50000) (j : Fin 47) :
    Host.dotGeneral dot_S50000x128_S128x47_S50000x47_1_0_0_1_n_n none l r (ix2 n j) = ∑ c : Fin 128, l (ix2 n c) * r (ix2 c j) :=
  Cert.LibHostDot.dotGeneral_plain (m := 50000) (k := 128) (n := 47) dot_S50000x128_S128x47_S50000x47_1_0_0_1_n_n_wf .single l r n j

/-- The neighbour means at `(n, k)`: the neighbour sum divided by the count of node `n`. -/
theorem divOf_apply (ei : EI) (h : FVec Ideal S50000x128 .f32) (n : Fin 50000) (k : Fin 128) :
    divOf (srcVecOf ei) (dstVecOf ei) h (ix2 n k) = Ideal.div (agg128 ei h (ix2 n k)) (cntMax ei (ix1 n)) := by
  unfold divOf
  rw [Cert.Sage.hostDivf_apply,
    colSpread_apply (N := 50000) (C := 128) bcast_S50000_S50000x1_0 bcast_S50000x1_S50000x128_0_1, aggOf_eq, cntOf_eq]

/-! ## The layers at an index -/

/-- A hidden layer before it is clipped, at `(n, j)`, is the specification's. -/
theorem layer128_apply (ei : EI) (h : FVec Ideal S50000x128 .f32) (Wl Wr : FVec Ideal S128x128 .f32)
    (b : FVec Ideal S128 .f32) (n : Fin 50000) (j : Fin 128) :
    layer128 (srcVecOf ei) (dstVecOf ei) h Wl Wr b (ix2 n j)
      = preR (N := 50000) (D := 128) (C := 128) (agg128 ei h) (cntMax ei) h Wl Wr b n j := by
  unfold layer128 preR
  rw [addf_apply, addf_apply, hostDot128_apply, hostDot128_apply,
    rowSpread_apply (N := 50000) (C := 128) bcast_S128_S1x128_1 bcast_S1x128_S50000x128_0_1]
  simp only [divOf_apply]

/-- The output layer before its log-softmax, at `(n, j)`, is the specification's. -/
theorem layer47_apply (ei : EI) (h : FVec Ideal S50000x128 .f32) (Wl Wr : FVec Ideal S128x47 .f32)
    (b : FVec Ideal S47 .f32) (n : Fin 50000) (j : Fin 47) :
    layer47 (srcVecOf ei) (dstVecOf ei) h Wl Wr b (ix2 n j)
      = preR (N := 50000) (D := 128) (C := 47) (agg128 ei h) (cntMax ei) h Wl Wr b n j := by
  unfold layer47 preR
  rw [addf_apply, addf_apply, hostDot47_apply, hostDot47_apply,
    rowSpread_apply (N := 50000) (C := 47) bcast_S47_S1x47_1 bcast_S1x47_S50000x47_0_1]
  simp only [divOf_apply]

/-- A hidden layer of the reference's operations is the specification's hidden layer. -/
theorem relu_layer128 (ei : EI) (h : FVec Ideal S50000x128 .f32) (Wl Wr : FVec Ideal S128x128 .f32)
    (b : FVec Ideal S128 .f32) :
    reluOp (layer128 (srcVecOf ei) (dstVecOf ei) h Wl Wr b) = hidR ei h Wl Wr b := by
  refine ext_ix2 (n0 := 50000) (n1 := 128) fun n j => ?_
  unfold hidR reluOp
  rw [denseR_apply, maximumf_apply, layer128_apply, broadcastInDim_scalar_apply, constant_apply, Ideal.ofBits_zero_f32]

/-! ## The log-softmax at an index -/

/-- The row maxima at `n`: the fold of `max` over row `n` from minus infinity. -/
theorem rowMaxOp_apply (z : FVec Ideal S50000x47 .f32) (n : Fin 50000) :
    rowMaxOp z (ix1 n) = rowMax (C := 47) (fun q => z (ix2 n q)) := by
  have hr := Cert.LibRowMax.hostReduce_maximumf_row (a := 50000) (b := 47) z
    (constant (F := Ideal) S_ .f32 0xFF800000#32) reducesTo_S50000x47_S50000_d1 (by decide) h_S_ n
  unfold rowMaxOp rowMax
  rw [maximumf_apply, broadcastInDim_scalar_apply, hr, negInf_def]
  simp only [constant_apply]
  exact max_eq_right ((Finset.le_fold_max _).mpr (Or.inl le_rfl))

/-- Each entry less its row's maximum. -/
theorem shiftOp_apply (z : FVec Ideal S50000x47 .f32) (n : Fin 50000) (q : Fin 47) :
    shiftOp z (ix2 n q) = z (ix2 n q) - rowMax (C := 47) (fun q' => z (ix2 n q')) := by
  unfold shiftOp
  rw [subf_apply, colSpread_apply (N := 50000) (C := 47) bcast_S50000_S50000x1_0 bcast_S50000x1_S50000x47_0_1,
    rowMaxOp_apply]

/-- The operations of the log-softmax compute, at `(n, j)`, the specification's log-softmax. -/
theorem lsmOp_apply (z : FVec Ideal S50000x47 .f32) (n : Fin 50000) (j : Fin 47) :
    lsmOp z (ix2 n j) = lsm (N := 50000) (C := 47) (fun p q => z (ix2 p q)) n j := by
  have hs := hostReduceAdd_row (a := 50000) (b := 47) (Host.exp (shiftOp z))
    (constant (F := Ideal) S_ .f32 0x00000000#32) reducesTo_S50000x47_S50000_d1 (by decide) h_S_ n
  simp only [constant_apply, Ideal.ofBits_zero_f32, zero_add, hostExp_apply, shiftOp_apply] at hs
  unfold lsmOp lsm
  rw [subf_apply, Cert.SparseProd.repeat_apply bcast_S50000x1_S50000x47_0_1, hostLog_apply,
    Cert.SparseProd.column_apply bcast_S50000_S50000x1_0, hs, shiftOp_apply]

/-- The output layer of the reference's operations is the specification's output layer. -/
theorem lsm_layer47 (ei : EI) (h : FVec Ideal S50000x128 .f32) (Wl Wr : FVec Ideal S128x47 .f32) (b : FVec Ideal S47 .f32) :
    lsmOp (layer47 (srcVecOf ei) (dstVecOf ei) h Wl Wr b)
      = outR (N := 50000) (D := 128) (C := 47) (agg128 ei h) (cntMax ei) h Wl Wr b := by
  refine ext_ix2 (n0 := 50000) (n1 := 47) fun n j => ?_
  rw [outR_apply, lsmOp_apply]
  exact congrArg (fun f => lsm f n j) (funext₂ fun p q => layer47_apply ei h Wl Wr b p q)

/-! ## The whole network -/

/-- The three layers of the reference's operations, composed, are the network of the specification. -/
theorem model_ops_eq (x : FVec Ideal S50000x128 .f32) (ei : EI) (Wl0 Wr0 : FVec Ideal S128x128 .f32) (b0 : FVec Ideal S128 .f32)
    (Wl1 Wr1 : FVec Ideal S128x128 .f32) (b1 : FVec Ideal S128 .f32) (Wl2 Wr2 : FVec Ideal S128x47 .f32)
    (b2 : FVec Ideal S47 .f32) :
    lsmOp (layer47 (srcVecOf ei) (dstVecOf ei)
      (reluOp (layer128 (srcVecOf ei) (dstVecOf ei)
        (reluOp (layer128 (srcVecOf ei) (dstVecOf ei) x Wl0 Wr0 b0)) Wl1 Wr1 b1)) Wl2 Wr2 b2)
      = modelR x ei Wl0 Wr0 b0 Wl1 Wr1 b1 Wl2 Wr2 b2 := by
  rw [relu_layer128, relu_layer128, lsm_layer47]
  rfl

/-- THE REFERENCE'S VALUE: its operations folded over the launch contents leave, in the result buffer, the network of
    the specification applied to the eleven arguments. -/
theorem ref_value (m : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.Value.ops (F := Ideal)) (StableHlo.launchContents m c)
        (Proc.devRef .tc Cert.ReferenceIdeal.main_v81)
      = modelR (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10)) := by
  rw [ops_eq, after_append, after_append, afterC_v81, afterB_v55, afterB_v1, afterB_v3, afterB_arg8, afterB_arg9, afterB_arg10,
    afterA_v29, afterA_v1, afterA_v3, afterA_arg5, afterA_arg6, afterA_arg7, afterA_arg8, afterA_arg9, afterA_arg10]
  exact model_ops_eq _ _ _ _ _ _ _ _ _ _ _

end Cert.Sage

end
-- ==== Proof.lean ====
/-
  The certificate of a three-layer mean-aggregation graph network: a kernel of four pallas_calls with host
  gather / scatter-add operations between them, against the plain jnp reference.

  Both programs compute, per layer, out = mean_neighbours(h) · Wl + h · Wr + b, the first two layers clipped at zero,
  the last followed by a row-wise log-softmax.  They differ in two places.  The kernel multiplies the neighbour sum
  by a stored reciprocal of the neighbour count where the reference divides by the count: on the extended reals
  x · (1/r) = x / r for every x once r is a nonzero real, and a count raised to at least one is such an r.  In the last
  layer the kernel multiplies by Wl BEFORE summing over neighbours (47 columns travel across the edges instead of 128):
  (∑ₑ ∑ₖ h (src e, k) · Wl (k, j)) / r = ∑ₖ ((∑ₑ h (src e, k)) / r) · Wl (k, j) is distributivity, which on the extended
  reals needs the summands finite — the hidden features are finite because the inputs are (the precondition) and every
  operation of a hidden layer keeps real numbers real.

  The pieces: the kernel's run with its result named (KRun) and that result read back through the host stretches and the
  four regions to `modelK` of the arguments (KHost, over the regions' whole-array forms Region0 … Region3); the
  reference's run and its result read layer by layer to `modelR` (RefValue); `modelK = modelR` on finite arguments
  (Bridge, over Algebra); the arguments' finiteness from the precondition (FiniteInputs).
-/
import proofs.«177180_j43800076484795_2_alg».proof.Defs
import proofs.«177180_j43800076484795_2_alg».proof.Proof.Gen.Kernel
import proofs.«177180_j43800076484795_2_alg».proof.Proof.KernelFrameP
import proofs.«177180_j43800076484795_2_alg».proof.Proof.Gen.KernelIdeal
import proofs.«177180_j43800076484795_2_alg».proof.Proof.KernelIdealFrameP
import proofs.«177180_j43800076484795_2_alg».proof.Proof.Gen.ReferenceIdeal
import proofs.«177180_j43800076484795_2_alg».proof.Proof.ReferenceIdealRunP
import proofs.«177180_j43800076484795_2_alg».proof.Proof.Gen.Pre_finite_inputs
import proofs.«177180_j43800076484795_2_alg».proof.Proof.KRun
import proofs.«177180_j43800076484795_2_alg».proof.Proof.KHost
import proofs.«177180_j43800076484795_2_alg».proof.Proof.FiniteInputs
import proofs.«177180_j43800076484795_2_alg».proof.Proof.Bridge
import proofs.«177180_j43800076484795_2_alg».proof.Proof.RefValue
import Idealize.ShloMosaic.Adequacy
import Idealize.ShloMosaic.Init

noncomputable section

namespace Cert.Proof

open Idealize.ShloMosaic Idealize.ShloMosaic.TcCoe Idealize.SL.Sem Cert.Sage

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end, the kernel's result array at `modelK` of the
    arguments and the reference's at `modelR` of them; the two are one array once the float arguments are finite. -/
theorem algebraic : Cert.algebraic_KernelIdeal_ReferenceIdeal := by
  intro m ρ m' ρ' hpre hagree
  refine ⟨fun c => modelK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Sage.KHost.W7_v49 m ρ c), (h c).2⟩)
      (Cert.Sage.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨f0, f2, f3, f4, f5, f6, f7, f8, f9, f10⟩ := Cert.Sage.finite_of_pre m hpre c
    rw [Cert.Sage.ref_value m' c, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact (Cert.Sage.modelK_eq_modelR _ _ _ _ _ _ _ _ _ _ _ f0 f2 f3 f4 f5 f6 f7 f8 f9 f10).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
